-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S2x131072 : Shape := ⟨2, ![2, 131072]⟩
abbrev S16384 : Shape := ⟨1, ![16384]⟩
abbrev S2x10x1x64 : Shape := ⟨4, ![2, 10, 1, 64]⟩
abbrev S10x64x128 : Shape := ⟨3, ![10, 64, 128]⟩
abbrev S10x128 : Shape := ⟨2, ![10, 128]⟩
abbrev S10x128x64 : Shape := ⟨3, ![10, 128, 64]⟩
abbrev S10x64 : Shape := ⟨2, ![10, 64]⟩
abbrev S10x64x8 : Shape := ⟨3, ![10, 64, 8]⟩
abbrev S10x8 : Shape := ⟨2, ![10, 8]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S16384 : S_.BroadcastsInDim S16384 (![] : Fin 0 → Fin S16384.rank)
  reducesTo_S16384_S_d0 : S16384.ReducesTo [0] S_
  bcast_S_S2x10x1x64 : S_.BroadcastsInDim S2x10x1x64 (![] : Fin 0 → Fin S2x10x1x64.rank)
  reducesTo_S2x10x1x64_S_d0_1_2_3 : S2x10x1x64.ReducesTo [0, 1, 2, 3] S_
  bcast_S_S10x64x128 : S_.BroadcastsInDim S10x64x128 (![] : Fin 0 → Fin S10x64x128.rank)
  reducesTo_S10x64x128_S_d0_1_2 : S10x64x128.ReducesTo [0, 1, 2] S_
  bcast_S_S10x128 : S_.BroadcastsInDim S10x128 (![] : Fin 0 → Fin S10x128.rank)
  reducesTo_S10x128_S_d0_1 : S10x128.ReducesTo [0, 1] S_
  bcast_S_S10x128x64 : S_.BroadcastsInDim S10x128x64 (![] : Fin 0 → Fin S10x128x64.rank)
  reducesTo_S10x128x64_S_d0_1_2 : S10x128x64.ReducesTo [0, 1, 2] S_
  bcast_S_S10x64 : S_.BroadcastsInDim S10x64 (![] : Fin 0 → Fin S10x64.rank)
  reducesTo_S10x64_S_d0_1 : S10x64.ReducesTo [0, 1] S_
  bcast_S_S10x64x8 : S_.BroadcastsInDim S10x64x8 (![] : Fin 0 → Fin S10x64x8.rank)
  reducesTo_S10x64x8_S_d0_1_2 : S10x64x8.ReducesTo [0, 1, 2] S_
  bcast_S_S10x8 : S_.BroadcastsInDim S10x8 (![] : Fin 0 → Fin S10x8.rank)
  reducesTo_S10x8_S_d0_1 : S10x8.ReducesTo [0, 1] S_

variable [Facts]

def fn_part3 {F : FTy → Type} [FloatOps F] (main_arg12 : FVec F S10x64x8 .f32) (main_arg13 : FVec F S10x8 .f32) (main_v48 : IVec S_ 1) (main_v49 : FVec F S10x64 .f32) (main_v50 : FVec F S10x64 .f32) : IVec S_ 1 :=
  let main_v51 : IVec S10x64 1 := cmpf .olt main_v49 main_v50
  let main_c_19 : IVec S_ 1 := constantI S_ 1 1#1
  let main_v52 : IVec S_ 1 := (fun x v => Host.reduce IntOp.andi x v reducesTo_S10x64_S_d0_1 h_S_) main_v51 main_c_19
  let main_v53 : IVec S_ 1 := andi main_v48 main_v52
  let main_v54 : FVec F S10x64x8 .f32 := Host.absf main_arg12
  let main_cst_20 : FVec F S_ .f32 := constant S_ .f32 0x7F800000#32
  let main_v55 : FVec F S10x64x8 .f32 := broadcastInDim S10x64x8 ![] bcast_S_S10x64x8 main_cst_20
  let main_v56 : IVec S10x64x8 1 := cmpf .olt main_v54 main_v55
  let main_c_21 : IVec S_ 1 := constantI S_ 1 1#1
  let main_v57 : IVec S_ 1 := (fun x v => Host.reduce IntOp.andi x v reducesTo_S10x64x8_S_d0_1_2 h_S_) main_v56 main_c_21
  let main_v58 : IVec S_ 1 := andi main_v53 main_v57
  let main_v59 : FVec F S10x8 .f32 := Host.absf main_arg13
  let main_cst_22 : FVec F S_ .f32 := constant S_ .f32 0x7F800000#32
  let main_v60 : FVec F S10x8 .f32 := broadcastInDim S10x8 ![] bcast_S_S10x8 main_cst_22
  let main_v61 : IVec S10x8 1 := cmpf .olt main_v59 main_v60
  let main_c_23 : IVec S_ 1 := constantI S_ 1 1#1
  let main_v62 : IVec S_ 1 := (fun x v => Host.reduce IntOp.andi x v reducesTo_S10x8_S_d0_1 h_S_) main_v61 main_c_23
  let main_v63 : IVec S_ 1 := andi main_v58 main_v62
  main_v63

def fn_part2 {F : FTy → Type} [FloatOps F] (main_arg8 : FVec F S10x64x128 .f32) (main_arg9 : FVec F S10x128 .f32) (main_arg10 : FVec F S10x128x64 .f32) (main_arg11 : FVec F S10x64 .f32) (main_arg12 : FVec F S10x64x8 .f32) (main_arg13 : FVec F S10x8 .f32) (main_v33 : IVec S_ 1) : IVec S_ 1 :=
  let main_v34 : FVec F S10x64x128 .f32 := Host.absf main_arg8
  let main_cst_12 : FVec F S_ .f32 := constant S_ .f32 0x7F800000#32
  let main_v35 : FVec F S10x64x128 .f32 := broadcastInDim S10x64x128 ![] bcast_S_S10x64x128 main_cst_12
  let main_v36 : IVec S10x64x128 1 := cmpf .olt main_v34 main_v35
  let main_c_13 : IVec S_ 1 := constantI S_ 1 1#1
  let main_v37 : IVec S_ 1 := (fun x v => Host.reduce IntOp.andi x v reducesTo_S10x64x128_S_d0_1_2 h_S_) main_v36 main_c_13
  let main_v38 : IVec S_ 1 := andi main_v33 main_v37
  let main_v39 : FVec F S10x128 .f32 := Host.absf main_arg9
  let main_cst_14 : FVec F S_ .f32 := constant S_ .f32 0x7F800000#32
  let main_v40 : FVec F S10x128 .f32 := broadcastInDim S10x128 ![] bcast_S_S10x128 main_cst_14
  let main_v41 : IVec S10x128 1 := cmpf .olt main_v39 main_v40
  let main_c_15 : IVec S_ 1 := constantI S_ 1 1#1
  let main_v42 : IVec S_ 1 := (fun x v => Host.reduce IntOp.andi x v reducesTo_S10x128_S_d0_1 h_S_) main_v41 main_c_15
  let main_v43 : IVec S_ 1 := andi main_v38 main_v42
  let main_v44 : FVec F S10x128x64 .f32 := Host.absf main_arg10
  let main_cst_16 : FVec F S_ .f32 := constant S_ .f32 0x7F800000#32
  let main_v45 : FVec F S10x128x64 .f32 := broadcastInDim S10x128x64 ![] bcast_S_S10x128x64 main_cst_16
  let main_v46 : IVec S10x128x64 1 := cmpf .olt main_v44 main_v45
  let main_c_17 : IVec S_ 1 := constantI S_ 1 1#1
  let main_v47 : IVec S_ 1 := (fun x v => Host.reduce IntOp.andi x v reducesTo_S10x128x64_S_d0_1_2 h_S_) main_v46 main_c_17
  let main_v48 : IVec S_ 1 := andi main_v43 main_v47
  let main_v49 : FVec F S10x64 .f32 := Host.absf main_arg11
  let main_cst_18 : FVec F S_ .f32 := constant S_ .f32 0x7F800000#32
  let main_v50 : FVec F S10x64 .f32 := broadcastInDim S10x64 ![] bcast_S_S10x64 main_cst_18
  fn_part3 (F := F) main_arg12 main_arg13 main_v48 main_v49 main_v50

def fn_part1 {F : FTy → Type} [FloatOps F] (main_arg5 : FVec F S10x128 .f32) (main_arg6 : FVec F S10x128x64 .f32) (main_arg7 : FVec F S10x64 .f32) (main_arg8 : FVec F S10x64x128 .f32) (main_arg9 : FVec F S10x128 .f32) (main_arg10 : FVec F S10x128x64 .f32) (main_arg11 : FVec F S10x64 .f32) (main_arg12 : FVec F S10x64x8 .f32) (main_arg13 : FVec F S10x8 .f32) (main_v13 : IVec S_ 1) (main_v16 : IVec S10x64x128 1) : IVec S_ 1 :=
  let main_c_5 : IVec S_ 1 := constantI S_ 1 1#1
  let main_v17 : IVec S_ 1 := (fun x v => Host.reduce IntOp.andi x v reducesTo_S10x64x128_S_d0_1_2 h_S_) main_v16 main_c_5
  let main_v18 : IVec S_ 1 := andi main_v13 main_v17
  let main_v19 : FVec F S10x128 .f32 := Host.absf main_arg5
  let main_cst_6 : FVec F S_ .f32 := constant S_ .f32 0x7F800000#32
  let main_v20 : FVec F S10x128 .f32 := broadcastInDim S10x128 ![] bcast_S_S10x128 main_cst_6
  let main_v21 : IVec S10x128 1 := cmpf .olt main_v19 main_v20
  let main_c_7 : IVec S_ 1 := constantI S_ 1 1#1
  let main_v22 : IVec S_ 1 := (fun x v => Host.reduce IntOp.andi x v reducesTo_S10x128_S_d0_1 h_S_) main_v21 main_c_7
  let main_v23 : IVec S_ 1 := andi main_v18 main_v22
  let main_v24 : FVec F S10x128x64 .f32 := Host.absf main_arg6
  let main_cst_8 : FVec F S_ .f32 := constant S_ .f32 0x7F800000#32
  let main_v25 : FVec F S10x128x64 .f32 := broadcastInDim S10x128x64 ![] bcast_S_S10x128x64 main_cst_8
  let main_v26 : IVec S10x128x64 1 := cmpf .olt main_v24 main_v25
  let main_c_9 : IVec S_ 1 := constantI S_ 1 1#1
  let main_v27 : IVec S_ 1 := (fun x v => Host.reduce IntOp.andi x v reducesTo_S10x128x64_S_d0_1_2 h_S_) main_v26 main_c_9
  let main_v28 : IVec S_ 1 := andi main_v23 main_v27
  let main_v29 : FVec F S10x64 .f32 := Host.absf main_arg7
  let main_cst_10 : FVec F S_ .f32 := constant S_ .f32 0x7F800000#32
  let main_v30 : FVec F S10x64 .f32 := broadcastInDim S10x64 ![] bcast_S_S10x64 main_cst_10
  let main_v31 : IVec S10x64 1 := cmpf .olt main_v29 main_v30
  let main_c_11 : IVec S_ 1 := constantI S_ 1 1#1
  let main_v32 : IVec S_ 1 := (fun x v => Host.reduce IntOp.andi x v reducesTo_S10x64_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S131072x64 .f32) (main_arg1 : IVec S2x131072 32) (main_arg2 : FVec F S16384 .f32) (main_arg3 : FVec F S2x10x1x64 .f32) (main_arg4 : FVec F S10x64x128 .f32) (main_arg5 : FVec F S10x128 .f32) (main_arg6 : FVec F S10x128x64 .f32) (main_arg7 : FVec F S10x64 .f32) (main_arg8 : FVec F S10x64x128 .f32) (main_arg9 : FVec F S10x128 .f32) (main_arg10 : FVec F S10x128x64 .f32) (main_arg11 : FVec F S10x64 .f32) (main_arg12 : FVec F S10x64x8 .f32) (main_arg13 : FVec F S10x8 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S2x10x1x64 .f32 := Host.absf main_arg3
  let main_cst_2 : FVec F S_ .f32 := constant S_ .f32 0x7F800000#32
  let main_v10 : FVec F S2x10x1x64 .f32 := broadcastInDim S2x10x1x64 ![] bcast_S_S2x10x1x64 main_cst_2
  let main_v11 : IVec S2x10x1x64 1 := cmpf .olt main_v9 main_v10
  let main_c_3 : IVec S_ 1 := constantI S_ 1 1#1
  let main_v12 : IVec S_ 1 := (fun x v => Host.reduce IntOp.andi x v reducesTo_S2x10x1x64_S_d0_1_2_3 h_S_) main_v11 main_c_3
  let main_v13 : IVec S_ 1 := andi main_v8 main_v12
  let main_v14 : FVec F S10x64x128 .f32 := Host.absf main_arg4
  let main_cst_4 : FVec F S_ .f32 := constant S_ .f32 0x7F800000#32
  let main_v15 : FVec F S10x64x128 .f32 := broadcastInDim S10x64x128 ![] bcast_S_S10x64x128 main_cst_4
  let main_v16 : IVec S10x64x128 1 := cmpf .olt main_v14 main_v15
  fn_part1 (F := F) main_arg5 main_arg6 main_arg7 main_arg8 main_arg9 main_arg10 main_arg11 main_arg12 main_arg13 main_v13 main_v16
-- ==== Kernel.lean ====
abbrev S131072x64 : Shape := ⟨2, ![131072, 64]⟩
abbrev S2x131072 : Shape := ⟨2, ![2, 131072]⟩
abbrev S16384 : Shape := ⟨1, ![16384]⟩
abbrev S2x10x1x64 : Shape := ⟨4, ![2, 10, 1, 64]⟩
abbrev S10x64x128 : Shape := ⟨3, ![10, 64, 128]⟩
abbrev S10x128 : Shape := ⟨2, ![10, 128]⟩
abbrev S10x128x64 : Shape := ⟨3, ![10, 128, 64]⟩
abbrev S10x64 : Shape := ⟨2, ![10, 64]⟩
abbrev S10x64x8 : Shape := ⟨3, ![10, 64, 8]⟩
abbrev S10x8 : Shape := ⟨2, ![10, 8]⟩
abbrev S1x131072 : Shape := ⟨2, ![1, 131072]⟩
abbrev S131072 : Shape := ⟨1, ![131072]⟩
abbrev S_ : Shape := ⟨0, ![]⟩
abbrev S131072x1 : Shape := ⟨2, ![131072, 1]⟩
abbrev S64x131072 : Shape := ⟨2, ![64, 131072]⟩
abbrev S1x10x1x64 : Shape := ⟨4, ![1, 10, 1, 64]⟩
abbrev S10x1x64 : Shape := ⟨3, ![10, 1, 64]⟩
abbrev S10x64x1 : Shape := ⟨3, ![10, 64, 1]⟩
abbrev S10x8x64 : Shape := ⟨3, ![10, 8, 64]⟩
abbrev S10x128x1 : Shape := ⟨3, ![10, 128, 1]⟩
abbrev S10x8x1 : Shape := ⟨3, ![10, 8, 1]⟩
abbrev S10x8x131072 : Shape := ⟨3, ![10, 8, 131072]⟩
abbrev S64x2048 : Shape := ⟨2, ![64, 2048]⟩
abbrev S1x2048 : Shape := ⟨2, ![1, 2048]⟩
abbrev S10x8x2048 : Shape := ⟨3, ![10, 8, 2048]⟩
abbrev S1x64x1 : Shape := ⟨3, ![1, 64, 1]⟩
abbrev S64x1 : Shape := ⟨2, ![64, 1]⟩
abbrev S1x128x64 : Shape := ⟨3, ![1, 128, 64]⟩
abbrev S128x64 : Shape := ⟨2, ![128, 64]⟩
abbrev S1x128x1 : Shape := ⟨3, ![1, 128, 1]⟩
abbrev S128x1 : Shape := ⟨2, ![128, 1]⟩
abbrev S1x64x128 : Shape := ⟨3, ![1, 64, 128]⟩
abbrev S64x128 : Shape := ⟨2, ![64, 128]⟩
abbrev S128x2048 : Shape := ⟨2, ![128, 2048]⟩
abbrev S1x8x64 : Shape := ⟨3, ![1, 8, 64]⟩
abbrev S8x64 : Shape := ⟨2, ![8, 64]⟩
abbrev S1x8x1 : Shape := ⟨3, ![1, 8, 1]⟩
abbrev S8x1 : Shape := ⟨2, ![8, 1]⟩
abbrev S8x2048 : Shape := ⟨2, ![8, 2048]⟩
abbrev S1x8x2048 : Shape := ⟨3, ![1, 8, 2048]⟩
abbrev S10x131072x8 : Shape := ⟨3, ![10, 131072, 8]⟩
abbrev S10x131072x8x1 : Shape := ⟨4, ![10, 131072, 8, 1]⟩

abbrev nBuf : Space → Nat
  | .hbm => 47
  | .vmem => 18
  | .smem => 0
  | _ => 0

abbrev bufTy : (tb : Table) → Fin (tcTables nBuf tb) → BufTy
  | .hbm, ⟨0, _⟩ => ⟨S131072x64, .f32⟩
  | .hbm, ⟨1, _⟩ => ⟨S2x131072, .i32⟩
  | .hbm, ⟨2, _⟩ => ⟨S16384, .f32⟩
  | .hbm, ⟨3, _⟩ => ⟨S2x10x1x64, .f32⟩
  | .hbm, ⟨4, _⟩ => ⟨S10x64x128, .f32⟩
  | .hbm, ⟨5, _⟩ => ⟨S10x128, .f32⟩
  | .hbm, ⟨6, _⟩ => ⟨S10x128x64, .f32⟩
  | .hbm, ⟨7, _⟩ => ⟨S10x64, .f32⟩
  | .hbm, ⟨8, _⟩ => ⟨S10x64x128, .f32⟩
  | .hbm, ⟨9, _⟩ => ⟨S10x128, .f32⟩
  | .hbm, ⟨10, _⟩ => ⟨S10x128x64, .f32⟩
  | .hbm, ⟨11, _⟩ => ⟨S10x64, .f32⟩
  | .hbm, ⟨12, _⟩ => ⟨S10x64x8, .f32⟩
  | .hbm, ⟨13, _⟩ => ⟨S10x8, .f32⟩
  | .hbm, ⟨14, _⟩ => ⟨S1x131072, .i32⟩
  | .hbm, ⟨15, _⟩ => ⟨S131072, .i32⟩
  | .hbm, ⟨16, _⟩ => ⟨S16384, .f32⟩
  | .hbm, ⟨17, _⟩ => ⟨S_, .i32⟩
  | .hbm, ⟨18, _⟩ => ⟨S131072, .i32⟩
  | .hbm, ⟨19, _⟩ => ⟨S131072, .i1⟩
  | .hbm, ⟨20, _⟩ => ⟨S_, .i32⟩
  | .hbm, ⟨21, _⟩ => ⟨S131072, .i32⟩
  | .hbm, ⟨22, _⟩ => ⟨S131072, .i32⟩
  | .hbm, ⟨23, _⟩ => ⟨S131072, .i32⟩
  | .hbm, ⟨24, _⟩ => ⟨S131072x1, .i32⟩
  | .hbm, ⟨25, _⟩ => ⟨S131072, .f32⟩
  | .hbm, ⟨26, _⟩ => ⟨S1x131072, .f32⟩
  | .hbm, ⟨27, _⟩ => ⟨S64x131072, .f32⟩
  | .hbm, ⟨28, _⟩ => ⟨S1x10x1x64, .f32⟩
  | .hbm, ⟨29, _⟩ => ⟨S10x1x64, .f32⟩
  | .hbm, ⟨30, _⟩ => ⟨S10x64x1, .f32⟩
  | .hbm, ⟨31, _⟩ => ⟨S1x10x1x64, .f32⟩
  | .hbm, ⟨32, _⟩ => ⟨S10x1x64, .f32⟩
  | .hbm, ⟨33, _⟩ => ⟨S10x64x1, .f32⟩
  | .hbm, ⟨34, _⟩ => ⟨S10x128x64, .f32⟩
  | .hbm, ⟨35, _⟩ => ⟨S10x64x128, .f32⟩
  | .hbm, ⟨36, _⟩ => ⟨S10x128x64, .f32⟩
  | .hbm, ⟨37, _⟩ => ⟨S10x64x128, .f32⟩
  | .hbm, ⟨38, _⟩ => ⟨S10x8x64, .f32⟩
  | .hbm, ⟨39, _⟩ => ⟨S10x128x1, .f32⟩
  | .hbm, ⟨40, _⟩ => ⟨S10x64x1, .f32⟩
  | .hbm, ⟨41, _⟩ => ⟨S10x128x1, .f32⟩
  | .hbm, ⟨42, _⟩ => ⟨S10x64x1, .f32⟩
  | .hbm, ⟨43, _⟩ => ⟨S10x8x1, .f32⟩
  | .hbm, ⟨44, _⟩ => ⟨S10x8x131072, .f32⟩
  | .hbm, ⟨45, _⟩ => ⟨S10x131072x8, .f32⟩
  | .hbm, ⟨46, _⟩ => ⟨S10x131072x8x1, .f32⟩
  | .local _ .vmem, ⟨0, _⟩ => ⟨S64x2048, .f32⟩
  | .local _ .vmem, ⟨1, _⟩ => ⟨S64x2048, .f32⟩
  | .local _ .vmem, ⟨2, _⟩ => ⟨S1x2048, .f32⟩
  | .local _ .vmem, ⟨3, _⟩ => ⟨S1x2048, .f32⟩
  | .local _ .vmem, ⟨4, _⟩ => ⟨S10x64x1, .f32⟩
  | .local _ .vmem, ⟨5, _⟩ => ⟨S10x64x1, .f32⟩
  | .local _ .vmem, ⟨6, _⟩ => ⟨S10x128x64, .f32⟩
  | .local _ .vmem, ⟨7, _⟩ => ⟨S10x128x1, .f32⟩
  | .local _ .vmem, ⟨8, _⟩ => ⟨S10x64x128, .f32⟩
  | .local _ .vmem, ⟨9, _⟩ => ⟨S10x64x1, .f32⟩
  | .local _ .vmem, ⟨10, _⟩ => ⟨S10x128x64, .f32⟩
  | .local _ .vmem, ⟨11, _⟩ => ⟨S10x128x1, .f32⟩
  | .local _ .vmem, ⟨12, _⟩ => ⟨S10x64x128, .f32⟩
  | .local _ .vmem, ⟨13, _⟩ => ⟨S10x64x1, .f32⟩
  | .local _ .vmem, ⟨14, _⟩ => ⟨S10x8x64, .f32⟩
  | .local _ .vmem, ⟨15, _⟩ => ⟨S10x8x1, .f32⟩
  | .local _ .vmem, ⟨16, _⟩ => ⟨S10x8x2048, .f32⟩
  | .local _ .vmem, ⟨17, _⟩ => ⟨S10x8x2048, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c10_i32 : BitVec 32 := 10#32
  let v6 : BitVec 32 := Scalar.addi c0_i32 c10_i32
  let c1_i32 : BitVec 32 := 1#32
  ⟨c0_i32, v6, c1_i32⟩
def k0_off1 (k0_t1 : Fin k0_t1_loop.trips) : Fin 3 → Nat :=
  let c0_i32_5 : BitVec 32 := 0#32
  let c0_i32 : BitVec 32 := 0#32
  let c1_i32 : BitVec 32 := 1#32
  let arg16 : BitVec 32 := Scf.iv c0_i32 c1_i32 k0_t1
  let c1_i32_4 : BitVec 32 := 1#32
  let v7 : BitVec 32 := Scalar.muli arg16 c1_i32_4
  let v8 : BitVec 32 := Scalar.addi c0_i32_5 v7
  let v9 : Index := Scalar.indexCast v8
  let c0_6 : Index := 0#32
  let c0_7 : Index := 0#32
  ![v9.toNat, 0, 0]
def k0_off2 (k0_t1 : Fin k0_t1_loop.trips) : Fin 3 → Nat :=
  let c0_i32_5 : BitVec 32 := 0#32
  let c0_i32 : BitVec 32 := 0#32
  let c1_i32 : BitVec 32 := 1#32
  let arg16 : BitVec 32 := Scf.iv c0_i32 c1_i32 k0_t1
  let c1_i32_4 : BitVec 32 := 1#32
  let v7 : BitVec 32 := Scalar.muli arg16 c1_i32_4
  let v8 : BitVec 32 := Scalar.addi c0_i32_5 v7
  let v20 : Index := Scalar.indexCast v8
  let c0_10 : Index := 0#32
  let c0_11 : Index := 0#32
  ![v20.toNat, 0, 0]
def k0_off3 (k0_t1 : Fin k0_t1_loop.trips) : Fin 3 → Nat :=
  let c0_i32_5 : BitVec 32 := 0#32
  let c0_i32 : BitVec 32 := 0#32
  let c1_i32 : BitVec 32 := 1#32
  let arg16 : BitVec 32 := Scf.iv c0_i32 c1_i32 k0_t1
  let c1_i32_4 : BitVec 32 := 1#32
  let v7 : BitVec 32 := Scalar.muli arg16 c1_i32_4
  let v8 : BitVec 32 := Scalar.addi c0_i32_5 v7
  let v24 : Index := Scalar.indexCast v8
  let c0_12 : Index := 0#32
  let c0_13 : Index := 0#32
  ![v24.toNat, 0, 0]
def k0_off4 (k0_t1 : Fin k0_t1_loop.trips) : Fin 3 → Nat :=
  let c0_i32_5 : BitVec 32 := 0#32
  let c0_i32 : BitVec 32 := 0#32
  let c1_i32 : BitVec 32 := 1#32
  let arg16 : BitVec 32 := Scf.iv c0_i32 c1_i32 k0_t1
  let c1_i32_4 : BitVec 32 := 1#32
  let v7 : BitVec 32 := Scalar.muli arg16 c1_i32_4
  let v8 : BitVec 32 := Scalar.addi c0_i32_5 v7
  let v27 : Index := Scalar.indexCast v8
  let c0_14 : Index := 0#32
  let c0_15 : Index := 0#32
  ![v27.toNat, 0, 0]
def k0_off5 (k0_t1 : Fin k0_t1_loop.trips) : Fin 3 → Nat :=
  let c0_i32_5 : BitVec 32 := 0#32
  let c0_i32 : BitVec 32 := 0#32
  let c1_i32 : BitVec 32 := 1#32
  let arg16 : BitVec 32 := Scf.iv c0_i32 c1_i32 k0_t1
  let c1_i32_4 : BitVec 32 := 1#32
  let v7 : BitVec 32 := Scalar.muli arg16 c1_i32_4
  let v8 : BitVec 32 := Scalar.addi c0_i32_5 v7
  let v72 : Index := Scalar.indexCast v8
  let c0_32 : Index := 0#32
  let c0_33 : Index := 0#32
  ![v72.toNat, 0, 0]
def k0_off6 (k0_t1 : Fin k0_t1_loop.trips) : Fin 3 → Nat :=
  let c0_i32_5 : BitVec 32 := 0#32
  let c0_i32 : BitVec 32 := 0#32
  let c1_i32 : BitVec 32 := 1#32
  let arg16 : BitVec 32 := Scf.iv c0_i32 c1_i32 k0_t1
  let c1_i32_4 : BitVec 32 := 1#32
  let v7 : BitVec 32 := Scalar.muli arg16 c1_i32_4
  let v8 : BitVec 32 := Scalar.addi c0_i32_5 v7
  let v76 : Index := Scalar.indexCast v8
  let c0_34 : Index := 0#32
  let c0_35 : Index := 0#32
  ![v76.toNat, 0, 0]
def k0_off7 (k0_t1 : Fin k0_t1_loop.trips) : Fin 3 → Nat :=
  let c0_i32_5 : BitVec 32 := 0#32
  let c0_i32 : BitVec 32 := 0#32
  let c1_i32 : BitVec 32 := 1#32
  let arg16 : BitVec 32 := Scf.iv c0_i32 c1_i32 k0_t1
  let c1_i32_4 : BitVec 32 := 1#32
  let v7 : BitVec 32 := Scalar.muli arg16 c1_i32_4
  let v8 : BitVec 32 := Scalar.addi c0_i32_5 v7
  let v83 : Index := Scalar.indexCast v8
  let c0_37 : Index := 0#32
  let c0_38 : Index := 0#32
  ![v83.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10x128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S10x64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S10x64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S10x8x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S10x8x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S10x8x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S2x131072_S1x131072_1_0 : S2x131072.Slices ![1, 0] S1x131072
  shapeCasts_S1x131072_S131072 : S1x131072.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  shapeCasts_S131072_S1x131072 : S131072.ShapeCasts S1x131072
  transposes_S131072x64_S64x131072_1_0 : S131072x64.Transposes [1, 0] S64x131072
  slices_S2x10x1x64_S1x10x1x64_0_0_0_0 : S2x10x1x64.Slices ![0, 0, 0, 0] S1x10x1x64
  shapeCasts_S1x10x1x64_S10x1x64 : S1x10x1x64.ShapeCasts S10x1x64
  transposes_S10x1x64_S10x64x1_0_2_1 : S10x1x64.Transposes [0, 2, 1] S10x64x1
  slices_S2x10x1x64_S1x10x1x64_1_0_0_0 : S2x10x1x64.Slices ![1, 0, 0, 0] S1x10x1x64
  transposes_S10x64x128_S10x128x64_0_2_1 : S10x64x128.Transposes [0, 2, 1] S10x128x64
  transposes_S10x128x64_S10x64x128_0_2_1 : S10x128x64.Transposes [0, 2, 1] S10x64x128
  transposes_S10x64x8_S10x8x64_0_2_1 : S10x64x8.Transposes [0, 2, 1] S10x8x64
  shapeCasts_S10x128_S10x128x1 : S10x128.ShapeCasts S10x128x1
  shapeCasts_S10x64_S10x64x1 : S10x64.ShapeCasts S10x64x1
  shapeCasts_S10x8_S10x8x1 : S10x8.ShapeCasts S10x8x1
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  h_S1x64x1 : 0 < S1x64x1.numel
  shapeCasts_S1x64x1_S64x1 : S1x64x1.ShapeCasts S64x1
  broadcasts_S64x1_S64x2048 : S64x1.Broadcasts S64x2048
  h_S1x128x64 : 0 < S1x128x64.numel
  shapeCasts_S1x128x64_S128x64 : S1x128x64.ShapeCasts S128x64
  bitsLt_bf16_f32 : FTy.bits .bf16 < FTy.bits .f32
  h_S1x128x1 : 0 < S1x128x1.numel
  shapeCasts_S1x128x1_S128x1 : S1x128x1.ShapeCasts S128x1
  h_S1x64x128 : 0 < S1x64x128.numel
  shapeCasts_S1x64x128_S64x128 : S1x64x128.ShapeCasts S64x128
  broadcasts_S128x1_S128x2048 : S128x1.Broadcasts S128x2048
  h_S1x8x64 : 0 < S1x8x64.numel
  shapeCasts_S1x8x64_S8x64 : S1x8x64.ShapeCasts S8x64
  h_S1x8x1 : 0 < S1x8x1.numel
  shapeCasts_S1x8x1_S8x1 : S1x8x1.ShapeCasts S8x1
  broadcasts_S8x1_S8x2048 : S8x1.Broadcasts S8x2048
  h_S1x8x2048 : 0 < S1x8x2048.numel
  shapeCasts_S1x8x2048_S8x2048 : S1x8x2048.ShapeCasts S8x2048
  shapeCasts_S8x2048_S1x8x2048 : S8x2048.ShapeCasts S1x8x2048
  transposes_S10x8x131072_S10x131072x8_0_2_1 : S10x8x131072.Transposes [0, 2, 1] S10x131072x8
  shapeCasts_S10x131072x8_S10x131072x8x1 : S10x131072x8.ShapeCasts S10x131072x8x1
  gather_S16384_S131072x1_S131072_n_0_n_n_0_1_1_wf : GatherDims.WF S16384 S131072x1 S131072 [] [0] [] [0] [] 1 ![1]
  dot_S128x64_S64x2048_S128x2048_1_0_0_1_n_n_wf : DotDims.WF S128x64 S64x2048 S128x2048 [1] [0] [0] [1] [] []
  dot_S64x128_S128x2048_S64x2048_1_0_0_1_n_n_wf : DotDims.WF S64x128 S128x2048 S64x2048 [1] [0] [0] [1] [] []
  dot_S8x64_S64x2048_S8x2048_1_0_0_1_n_n_wf : DotDims.WF S8x64 S64x2048 S8x2048 [1] [0] [0] [1] [] []
  hrank0 : 0 < grid0.rank
  k0_t1_ok : k0_t1_loop.OK
  k0_off1_inb : ∀ k0_t1 : Fin k0_t1_loop.trips, ∀ a, (k0_off1 k0_t1) a + S1x64x1.size a ≤ S10x64x1.size a
  k0_off2_inb : ∀ k0_t1 : Fin k0_t1_loop.trips, ∀ a, (k0_off2 k0_t1) a + S1x128x64.size a ≤ S10x128x64.size a
  k0_off3_inb : ∀ k0_t1 : Fin k0_t1_loop.trips, ∀ a, (k0_off3 k0_t1) a + S1x128x1.size a ≤ S10x128x1.size a
  k0_off4_inb : ∀ k0_t1 : Fin k0_t1_loop.trips, ∀ a, (k0_off4 k0_t1) a + S1x64x128.size a ≤ S10x64x128.size a
  k0_off5_inb : ∀ k0_t1 : Fin k0_t1_loop.trips, ∀ a, (k0_off5 k0_t1) a + S1x8x64.size a ≤ S10x8x64.size a
  k0_off6_inb : ∀ k0_t1 : Fin k0_t1_loop.trips, ∀ a, (k0_off6 k0_t1) a + S1x8x1.size a ≤ S10x8x1.size a
  k0_off7_inb : ∀ k0_t1 : Fin k0_t1_loop.trips, ∀ a, (k0_off7 k0_t1) a + S1x8x2048.size a ≤ S10x8x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x131072.size a
  hwx0_0 : ∀ i : grid0.Coords, EltTy.bits .f32 = 32 ∨ (Rect.block (s := S64x131072) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x131072.size a
  hwx0_1 : ∀ i : grid0.Coords, EltTy.bits .f32 = 32 ∨ (Rect.block (s := S1x131072) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x64x1.size a ≤ S10x64x1.size a
  hwx0_2 : ∀ i : grid0.Coords, EltTy.bits .f32 = 32 ∨ (Rect.block (s := S10x64x1) S10x64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x64x1.size a ≤ S10x64x1.size a
  hwx0_3 : ∀ i : grid0.Coords, EltTy.bits .f32 = 32 ∨ (Rect.block (s := S10x64x1) S10x64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x128x64.size a ≤ S10x128x64.size a
  hwx0_4 : ∀ i : grid0.Coords, EltTy.bits .f32 = 32 ∨ (Rect.block (s := S10x128x64) S10x128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x128x1.size a ≤ S10x128x1.size a
  hwx0_5 : ∀ i : grid0.Coords, EltTy.bits .f32 = 32 ∨ (Rect.block (s := S10x128x1) S10x128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10x64x128.size a ≤ S10x64x128.size a
  hwx0_6 : ∀ i : grid0.Coords, EltTy.bits .f32 = 32 ∨ (Rect.block (s := S10x64x128) S10x64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x64x1.size a ≤ S10x64x1.size a
  hwx0_7 : ∀ i : grid0.Coords, EltTy.bits .f32 = 32 ∨ (Rect.block (s := S10x64x1) S10x64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S10x128x64.size a ≤ S10x128x64.size a
  hwx0_8 : ∀ i : grid0.Coords, EltTy.bits .f32 = 32 ∨ (Rect.block (s := S10x128x64) S10x128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S10x128x1.size a ≤ S10x128x1.size a
  hwx0_9 : ∀ i : grid0.Coords, EltTy.bits .f32 = 32 ∨ (Rect.block (s := S10x128x1) S10x128x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S10x64x128.size a ≤ S10x64x128.size a
  hwx0_10 : ∀ i : grid0.Coords, EltTy.bits .f32 = 32 ∨ (Rect.block (s := S10x64x128) S10x64x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S10x64x1.size a ≤ S10x64x1.size a
  hwx0_11 : ∀ i : grid0.Coords, EltTy.bits .f32 = 32 ∨ (Rect.block (s := S10x64x1) S10x64x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S10x8x64.size a ≤ S10x8x64.size a
  hwx0_12 : ∀ i : grid0.Coords, EltTy.bits .f32 = 32 ∨ (Rect.block (s := S10x8x64) S10x8x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S10x8x1.size a ≤ S10x8x1.size a
  hwx0_13 : ∀ i : grid0.Coords, EltTy.bits .f32 = 32 ∨ (Rect.block (s := S10x8x1) S10x8x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S10x8x2048.size a ≤ S10x8x131072.size a
  hwx0_14 : ∀ i : grid0.Coords, EltTy.bits .f32 = 32 ∨ (Rect.block (s := S10x8x131072) S10x8x2048.size (cc0_transform_14 i) (hinb0_14 i)).WholeWords (EltTy.packing .f32)

variable [Facts₀]

def gather_S16384_S131072x1_S131072_n_0_n_n_0_1_1 : GatherDims S16384 S131072x1 S131072 where
  offsetDims := []
  collapsedSliceDims := [0]
  operandBatchingDims := []
  startIndicesBatchingDims := []
  startIndexMap := [0]
  indexVectorDim := 1
  sliceSizes := ![1]
  wf := gather_S16384_S131072x1_S131072_n_0_n_n_0_1_1_wf
def dot_S128x64_S64x2048_S128x2048_1_0_0_1_n_n : DotDims S128x64 S64x2048 S128x2048 where
  lhsContracting := [1]
  rhsContracting := [0]
  lhsNonContracting := [0]
  rhsNonContracting := [1]
  lhsBatch := []
  rhsBatch := []
  wf := dot_S128x64_S64x2048_S128x2048_1_0_0_1_n_n_wf
def dot_S64x128_S128x2048_S64x2048_1_0_0_1_n_n : DotDims S64x128 S128x2048 S64x2048 where
  lhsContracting := [1]
  rhsContracting := [0]
  lhsNonContracting := [0]
  rhsNonContracting := [1]
  lhsBatch := []
  rhsBatch := []
  wf := dot_S64x128_S128x2048_S64x2048_1_0_0_1_n_n_wf
def dot_S8x64_S64x2048_S8x2048_1_0_0_1_n_n : DotDims S8x64 S64x2048 S8x2048 where
  lhsContracting := [1]
  rhsContracting := [0]
  lhsNonContracting := [0]
  rhsNonContracting := [1]
  lhsBatch := []
  rhsBatch := []
  wf := dot_S8x64_S64x2048_S8x2048_1_0_0_1_n_n_wf

abbrev win0_0 : Pipeline.Window sig grid0 :=
  Pipeline.Window.ofSpec (Memref.whole main_v11) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S10x64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S10x64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S10x128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S10x128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S10x64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S10x64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S10x128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S10x128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S10x64x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v26) S10x64x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22) S10x8x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v27) S10x8x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v28) S10x8x2048.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S131072x64 : Shape := ⟨2, ![131072, 64]⟩
abbrev S2x131072 : Shape := ⟨2, ![2, 131072]⟩
abbrev S16384 : Shape := ⟨1, ![16384]⟩
abbrev S2x10x1x64 : Shape := ⟨4, ![2, 10, 1, 64]⟩
abbrev S10x64x128 : Shape := ⟨3, ![10, 64, 128]⟩
abbrev S10x128 : Shape := ⟨2, ![10, 128]⟩
abbrev S10x128x64 : Shape := ⟨3, ![10, 128, 64]⟩
abbrev S10x64 : Shape := ⟨2, ![10, 64]⟩
abbrev S10x64x8 : Shape := ⟨3, ![10, 64, 8]⟩
abbrev S10x8 : Shape := ⟨2, ![10, 8]⟩
abbrev S1x131072 : Shape := ⟨2, ![1, 131072]⟩
abbrev S131072 : Shape := ⟨1, ![131072]⟩
abbrev S_ : Shape := ⟨0, ![]⟩
abbrev S131072x1 : Shape := ⟨2, ![131072, 1]⟩
abbrev S1x131072x1 : Shape := ⟨3, ![1, 131072, 1]⟩
abbrev S1x131072x64 : Shape := ⟨3, ![1, 131072, 64]⟩
abbrev S1x10x1x64 : Shape := ⟨4, ![1, 10, 1, 64]⟩
abbrev S10x1x64 : Shape := ⟨3, ![10, 1, 64]⟩
abbrev S10x131072x64 : Shape := ⟨3, ![10, 131072, 64]⟩
abbrev S10x131072x128 : Shape := ⟨3, ![10, 131072, 128]⟩
abbrev S10x1x128 : Shape := ⟨3, ![10, 1, 128]⟩
abbrev S10x131072x8 : Shape := ⟨3, ![10, 131072, 8]⟩
abbrev S10x1x8 : Shape := ⟨3, ![10, 1, 8]⟩
abbrev S10x131072x8x1 : Shape := ⟨4, ![10, 131072, 8, 1]⟩

abbrev nBuf : Space → Nat
  | .hbm => 73
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S2x131072, .i32⟩
  | .hbm, ⟨2, _⟩ => ⟨S16384, .f32⟩
  | .hbm, ⟨3, _⟩ => ⟨S2x10x1x64, .f32⟩
  | .hbm, ⟨4, _⟩ => ⟨S10x64x128, .f32⟩
  | .hbm, ⟨5, _⟩ => ⟨S10x128, .f32⟩
  | .hbm, ⟨6, _⟩ => ⟨S10x128x64, .f32⟩
  | .hbm, ⟨7, _⟩ => ⟨S10x64, .f32⟩
  | .hbm, ⟨8, _⟩ => ⟨S10x64x128, .f32⟩
  | .hbm, ⟨9, _⟩ => ⟨S10x128, .f32⟩
  | .hbm, ⟨10, _⟩ => ⟨S10x128x64, .f32⟩
  | .hbm, ⟨11, _⟩ => ⟨S10x64, .f32⟩
  | .hbm, ⟨12, _⟩ => ⟨S10x64x8, .f32⟩
  | .hbm, ⟨13, _⟩ => ⟨S10x8, .f32⟩
  | .hbm, ⟨14, _⟩ => ⟨S1x131072, .i32⟩
  | .hbm, ⟨15, _⟩ => ⟨S131072, .i32⟩
  | .hbm, ⟨16, _⟩ => ⟨S16384, .f32⟩
  | .hbm, ⟨17, _⟩ => ⟨S_, .i32⟩
  | .hbm, ⟨18, _⟩ => ⟨S131072, .i32⟩
  | .hbm, ⟨19, _⟩ => ⟨S131072, .i1⟩
  | .hbm, ⟨20, _⟩ => ⟨S_, .i32⟩
  | .hbm, ⟨21, _⟩ => ⟨S131072, .i32⟩
  | .hbm, ⟨22, _⟩ => ⟨S131072, .i32⟩
  | .hbm, ⟨23, _⟩ => ⟨S131072, .i32⟩
  | .hbm, ⟨24, _⟩ => ⟨S131072x1, .i32⟩
  | .hbm, ⟨25, _⟩ => ⟨S131072, .f32⟩
  | .hbm, ⟨26, _⟩ => ⟨S1x131072x1, .f32⟩
  | .hbm, ⟨27, _⟩ => ⟨S1x131072x64, .f32⟩
  | .hbm, ⟨28, _⟩ => ⟨S1x10x1x64, .f32⟩
  | .hbm, ⟨29, _⟩ => ⟨S10x1x64, .f32⟩
  | .hbm, ⟨30, _⟩ => ⟨S10x131072x64, .f32⟩
  | .hbm, ⟨31, _⟩ => ⟨S10x131072x64, .f32⟩
  | .hbm, ⟨32, _⟩ => ⟨S10x131072x64, .f32⟩
  | .hbm, ⟨33, _⟩ => ⟨S1x131072x64, .f32⟩
  | .hbm, ⟨34, _⟩ => ⟨S1x131072x64, .f32⟩
  | .hbm, ⟨35, _⟩ => ⟨S1x10x1x64, .f32⟩
  | .hbm, ⟨36, _⟩ => ⟨S10x1x64, .f32⟩
  | .hbm, ⟨37, _⟩ => ⟨S10x131072x64, .f32⟩
  | .hbm, ⟨38, _⟩ => ⟨S10x131072x64, .f32⟩
  | .hbm, ⟨39, _⟩ => ⟨S10x131072x64, .f32⟩
  | .hbm, ⟨40, _⟩ => ⟨S10x131072x64, .f32⟩
  | .hbm, ⟨41, _⟩ => ⟨S10x131072x128, .f32⟩
  | .hbm, ⟨42, _⟩ => ⟨S10x1x128, .f32⟩
  | .hbm, ⟨43, _⟩ => ⟨S10x131072x128, .f32⟩
  | .hbm, ⟨44, _⟩ => ⟨S10x131072x128, .f32⟩
  | .hbm, ⟨45, _⟩ => ⟨S_, .f32⟩
  | .hbm, ⟨46, _⟩ => ⟨S10x131072x128, .f32⟩
  | .hbm, ⟨47, _⟩ => ⟨S10x131072x128, .f32⟩
  | .hbm, ⟨48, _⟩ => ⟨S10x131072x64, .f32⟩
  | .hbm, ⟨49, _⟩ => ⟨S10x1x64, .f32⟩
  | .hbm, ⟨50, _⟩ => ⟨S10x131072x64, .f32⟩
  | .hbm, ⟨51, _⟩ => ⟨S10x131072x64, .f32⟩
  | .hbm, ⟨52, _⟩ => ⟨S10x131072x64, .f32⟩
  | .hbm, ⟨53, _⟩ => ⟨S10x131072x128, .f32⟩
  | .hbm, ⟨54, _⟩ => ⟨S10x1x128, .f32⟩
  | .hbm, ⟨55, _⟩ => ⟨S10x131072x128, .f32⟩
  | .hbm, ⟨56, _⟩ => ⟨S10x131072x128, .f32⟩
  | .hbm, ⟨57, _⟩ => ⟨S_, .f32⟩
  | .hbm, ⟨58, _⟩ => ⟨S10x131072x128, .f32⟩
  | .hbm, ⟨59, _⟩ => ⟨S10x131072x128, .f32⟩
  | .hbm, ⟨60, _⟩ => ⟨S10x131072x64, .f32⟩
  | .hbm, ⟨61, _⟩ => ⟨S10x1x64, .f32⟩
  | .hbm, ⟨62, _⟩ => ⟨S10x131072x64, .f32⟩
  | .hbm, ⟨63, _⟩ => ⟨S10x131072x64, .f32⟩
  | .hbm, ⟨64, _⟩ => ⟨S10x131072x64, .f32⟩
  | .hbm, ⟨65, _⟩ => ⟨S_, .f32⟩
  | .hbm, ⟨66, _⟩ => ⟨S10x131072x64, .f32⟩
  | .hbm, ⟨67, _⟩ => ⟨S10x131072x64, .f32⟩
  | .hbm, ⟨68, _⟩ => ⟨S10x131072x8, .f32⟩
  | .hbm, ⟨69, _⟩ => ⟨S10x1x8, .f32⟩
  | .hbm, ⟨70, _⟩ => ⟨S10x131072x8, .f32⟩
  | .hbm, ⟨71, _⟩ => ⟨S10x131072x8, .f32⟩
  | .hbm, ⟨72, _⟩ => ⟨S10x131072x8x1, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call1_cst : Ref sig .tc := ⟨.hbm, 57, rfl⟩
abbrev main_call1_v0 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call2_cst : Ref sig .tc := ⟨.hbm, 65, rfl⟩
abbrev main_call2_v0 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]

class Facts₀ : Prop where
  slices_S2x131072_S1x131072_1_0 : S2x131072.Slices ![1, 0] S1x131072
  shapeCasts_S1x131072_S131072 : S1x131072.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  bcast_S131072_S1x131072x1_1 : S131072.BroadcastsInDim S1x131072x1 (![1] : Fin 1 → Fin S1x131072x1.rank)
  bcast_S131072x64_S1x131072x64_1_2 : S131072x64.BroadcastsInDim S1x131072x64 (![1, 2] : Fin 2 → Fin S1x131072x64.rank)
  slices_S2x10x1x64_S1x10x1x64_0_0_0_0 : S2x10x1x64.Slices ![0, 0, 0, 0] S1x10x1x64
  shapeCasts_S1x10x1x64_S10x1x64 : S1x10x1x64.ShapeCasts S10x1x64
  bcast_S1x131072x64_S10x131072x64_0_1_2 : S1x131072x64.BroadcastsInDim S10x131072x64 (![0, 1, 2] : Fin 3 → Fin S10x131072x64.rank)
  bcast_S10x1x64_S10x131072x64_0_1_2 : S10x1x64.BroadcastsInDim S10x131072x64 (![0, 1, 2] : Fin 3 → Fin S10x131072x64.rank)
  bcast_S1x131072x1_S1x131072x64_0_1_2 : S1x131072x1.BroadcastsInDim S1x131072x64 (![0, 1, 2] : Fin 3 → Fin S1x131072x64.rank)
  slices_S2x10x1x64_S1x10x1x64_1_0_0_0 : S2x10x1x64.Slices ![1, 0, 0, 0] S1x10x1x64
  bcast_S10x128_S10x1x128_0_2 : S10x128.BroadcastsInDim S10x1x128 (![0, 2] : Fin 2 → Fin S10x1x128.rank)
  bcast_S10x1x128_S10x131072x128_0_1_2 : S10x1x128.BroadcastsInDim S10x131072x128 (![0, 1, 2] : Fin 3 → Fin S10x131072x128.rank)
  bcast_S_S10x131072x128 : S_.BroadcastsInDim S10x131072x128 (![] : Fin 0 → Fin S10x131072x128.rank)
  bcast_S10x64_S10x1x64_0_2 : S10x64.BroadcastsInDim S10x1x64 (![0, 2] : Fin 2 → Fin S10x1x64.rank)
  bcast_S_S10x131072x64 : S_.BroadcastsInDim S10x131072x64 (![] : Fin 0 → Fin S10x131072x64.rank)
  bcast_S10x8_S10x1x8_0_2 : S10x8.BroadcastsInDim S10x1x8 (![0, 2] : Fin 2 → Fin S10x1x8.rank)
  bcast_S10x1x8_S10x131072x8_0_1_2 : S10x1x8.BroadcastsInDim S10x131072x8 (![0, 1, 2] : Fin 3 → Fin S10x131072x8.rank)
  shapeCasts_S10x131072x8_S10x131072x8x1 : S10x131072x8.ShapeCasts S10x131072x8x1
  gather_S16384_S131072x1_S131072_n_0_n_n_0_1_1_wf : GatherDims.WF S16384 S131072x1 S131072 [] [0] [] [0] [] 1 ![1]
  dot_S10x131072x64_S10x64x128_S10x131072x128_2_1_1_2_0_0_wf : DotDims.WF S10x131072x64 S10x64x128 S10x131072x128 [2] [1] [1] [2] [0] [0]
  dot_S10x131072x128_S10x128x64_S10x131072x64_2_1_1_2_0_0_wf : DotDims.WF S10x131072x128 S10x128x64 S10x131072x64 [2] [1] [1] [2] [0] [0]
  dot_S10x131072x64_S10x64x8_S10x131072x8_2_1_1_2_0_0_wf : DotDims.WF S10x131072x64 S10x64x8 S10x131072x8 [2] [1] [1] [2] [0] [0]

variable [Facts₀]

def gather_S16384_S131072x1_S131072_n_0_n_n_0_1_1 : GatherDims S16384 S131072x1 S131072 where
  offsetDims := []
  collapsedSliceDims := [0]
  operandBatchingDims := []
  startIndicesBatchingDims := []
  startIndexMap := [0]
  indexVectorDim := 1
  sliceSizes := ![1]
  wf := gather_S16384_S131072x1_S131072_n_0_n_n_0_1_1_wf
def dot_S10x131072x64_S10x64x128_S10x131072x128_2_1_1_2_0_0 : DotDims S10x131072x64 S10x64x128 S10x131072x128 where
  lhsContracting := [2]
  rhsContracting := [1]
  lhsNonContracting := [1]
  rhsNonContracting := [2]
  lhsBatch := [0]
  rhsBatch := [0]
  wf := dot_S10x131072x64_S10x64x128_S10x131072x128_2_1_1_2_0_0_wf
def dot_S10x131072x128_S10x128x64_S10x131072x64_2_1_1_2_0_0 : DotDims S10x131072x128 S10x128x64 S10x131072x64 where
  lhsContracting := [2]
  rhsContracting := [1]
  lhsNonContracting := [1]
  rhsNonContracting := [2]
  lhsBatch := [0]
  rhsBatch := [0]
  wf := dot_S10x131072x128_S10x128x64_S10x131072x64_2_1_1_2_0_0_wf
def dot_S10x131072x64_S10x64x8_S10x131072x8_2_1_1_2_0_0 : DotDims S10x131072x64 S10x64x8 S10x131072x8 where
  lhsContracting := [2]
  rhsContracting := [1]
  lhsNonContracting := [1]
  rhsNonContracting := [2]
  lhsBatch := [0]
  rhsBatch := [0]
  wf := dot_S10x131072x64_S10x64x8_S10x131072x8_2_1_1_2_0_0_wf

class Facts : Prop extends Facts₀ where

variable [Facts]
-- ==== Proof.Spec.lean ====
/-
  The function both programs compute, one edge and one group at a time.

  An edge has a feature row `a : Fin 64 → EReal` and the square root `s` of its destination node's degree; a group
  has two degree coefficient rows, two feed-forward blocks (64 → 128 → 64, each with a rectifier in the middle and a
  residual connection around it) and a projection to 8 heads. Nothing mixes edges or groups, so the whole result
  array is this function at every (group, edge, head). The rectifier's threshold `z` is a parameter: both programs
  write the same zero word there, and nothing below needs its value.
-/
import Idealize.ShloMosaic.PureOps.Ideal
import Idealize.ShloMosaic.Lib.ValueIdx

noncomputable section

namespace GroupedMlp

open scoped BigOperators

/-- The degree scaling of a feature row: `a·c0 + (a·s)·c1`, entry by entry. -/
def scaled (a : Fin 64 → EReal) (s : EReal) (c0 c1 : Fin 64 → EReal) (h : Fin 64) : EReal :=
  a h * c0 h + a h * s * c1 h

/-- The hidden layer of a feed-forward block: `max (x·wi + bi) z`. -/
def hidden (z : EReal) (x : Fin 64 → EReal) (wi : Fin 64 → Fin 128 → EReal) (bi : Fin 128 → EReal) (f : Fin 128) : EReal :=
  max (∑ h : Fin 64, x h * wi h f + bi f) z

/-- A feed-forward block with its residual: `x + (hidden·wo + bo)`. -/
def block (z : EReal) (x : Fin 64 → EReal) (wi : Fin 64 → Fin 128 → EReal) (bi : Fin 128 → EReal)
    (wo : Fin 128 → Fin 64 → EReal) (bo : Fin 64 → EReal) (h : Fin 64) : EReal :=
  x h + (∑ f : Fin 128, hidden z x wi bi f * wo f h + bo h)

/-- The projection to the heads after a last rectifier: `max x z · wf + bf`. -/
def head (z : EReal) (x : Fin 64 → EReal) (wf : Fin 64 → Fin 8 → EReal) (bf : Fin 8 → EReal) (n : Fin 8) : EReal :=
  ∑ h : Fin 64, max (x h) z * wf h n + bf n

/-- One edge through one group: scaling, two blocks, the heads. -/
def edgeOut (z : EReal) (a : Fin 64 → EReal) (s : EReal) (c0 c1 : Fin 64 → EReal)
    (wi1 : Fin 64 → Fin 128 → EReal) (bi1 : Fin 128 → EReal) (wo1 : Fin 128 → Fin 64 → EReal) (bo1 : Fin 64 → EReal)
    (wi2 : Fin 64 → Fin 128 → EReal) (bi2 : Fin 128 → EReal) (wo2 : Fin 128 → Fin 64 → EReal) (bo2 : Fin 64 → EReal)
    (wf : Fin 64 → Fin 8 → EReal) (bf : Fin 8 → EReal) (n : Fin 8) : EReal :=
  head z (block z (block z (scaled a s c0 c1) wi1 bi1 wo1 bo1) wi2 bi2 wo2 bo2) wf bf n

end GroupedMlp

end
-- ==== Proof.LibColumns.lean ====
/-
  Layout operations on a column of per-row values, read at an index: a vector of `a` values cast to an `a × 1`
  column reads, at row `p`, the vector at `p`; a column broadcast over `b` lanes reads, at `(p, c)`, the column at
  row `p`. (What a row reduction kept as a column and spread back over the row does to indices.)
-/
import Idealize.ShloMosaic.Lib.Pipeline.Value
import Idealize.ShloMosaic.Lib.ValueIdx
import Idealize.ShloMosaic.Lib.ValueLayout

namespace Idealize.ShloMosaic.LibColumns

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumns
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.KernelLayers.lean ====
/-
  The layers of the grouped network as the kernel spells them, read at one (row, lane).

  The kernel keeps the edges of a tile on the lanes: the activations are a [64, L] array whose column `e` is edge `e`'s
  feature row, a weight matrix multiplies from the left, and a bias is a column spread over the lanes. So a dense layer
  is, at (r, e), the sum over k of W(r, k) · x(k, e) plus b(r). Each factor pair is the reference's pair in the other
  order; the product of extended reals commutes, and that is the only law used. The narrowing of an operand to a
  shorter float format before a product is the identity on exact values. Weights and biases arrive as the slab
  [1, ·, ·] that one group's row of the stacked array is.
-/
import proofs.«141326_j66271345377501_2_alg».proof.Proof.Spec
import proofs.«141326_j66271345377501_2_alg».proof.Proof.LibColumns
import proofs.«141326_j66271345377501_2_alg».proof.Proof.LibPlainProduct
import Idealize.ShloMosaic.Lib.ValueLayout

noncomputable section

namespace GroupedMlp.Lanes

open Idealize.ShloMosaic Idealize.ShloMosaic.ValueIdx PlainProduct
open scoped BigOperators

variable {M K L : ℕ}

/-- The threshold of the rectifiers: the value of the zero word (never evaluated). -/
abbrev zeroWord : EReal := Ideal.ofBits .f32 0x00000000#32

/-- A dense layer on every lane: at (r, e) the sum over k of x(k, e) · W(0, r, k), plus the bias b(0, r, 0). -/
theorem dense_apply (wf : DotDims.WF (⟨2, ![M, K]⟩ : Shape) ⟨2, ![K, L]⟩ ⟨2, ![M, L]⟩ [1] [0] [0] [1] [] [])
    (W : FVec Ideal ⟨3, ![1, M, K]⟩ .f32) (b : FVec Ideal ⟨3, ![1, M, 1]⟩ .f32) (x : FVec Ideal ⟨2, ![K, L]⟩ .f32)
    (hW : (⟨3, ![1, M, K]⟩ : Shape).ShapeCasts ⟨2, ![M, K]⟩) (hb : (⟨3, ![1, M, 1]⟩ : Shape).ShapeCasts ⟨2, ![M, 1]⟩)
    (hbc : (⟨2, ![M, 1]⟩ : Shape).Broadcasts ⟨2, ![M, L]⟩) (ht : FTy.bf16.bits < FTy.f32.bits)
    (r : Fin M) (e : Fin L) :
    addf (matmul (plainDims M K L wf) none (truncf .bf16 (shapeCast ⟨2, ![M, K]⟩ W hW) ht) (truncf .bf16 x ht)
        (constant ⟨2, ![M, L]⟩ .f32 0x00000000#32)) (broadcastTo ⟨2, ![M, L]⟩ (shapeCast ⟨2, ![M, 1]⟩ b hb) hbc) (ix2 r e)
      = ∑ k : Fin K, x (ix2 k e) * W (ix3 (0 : Fin 1) r k) + b (ix3 (0 : Fin 1) r (0 : Fin 1)) := by
  rw [addf_apply, matmul_zero_apply, LibColumns.broadcastTo_a1_ab_apply, shapeCast_1ab_ab_apply]
  congr 1
  refine Finset.sum_congr rfl fun k _ => ?_
  rw [truncf_apply, truncf_apply, shapeCast_1ab_ab_apply, mul_comm]

/-- The degree scaling on every lane: the features times the first coefficient column, plus the features times the
    lane's square-root degree times the second. -/
theorem scaled_apply (a : FVec Ideal ⟨2, ![K, L]⟩ .f32) (s : FVec Ideal ⟨2, ![1, L]⟩ .f32)
    (c0 c1 : FVec Ideal ⟨3, ![1, K, 1]⟩ .f32)
    (ha : (⟨2, ![K, L]⟩ : Shape).ShapeCasts ⟨2, ![K, L]⟩) (hs : (⟨2, ![1, L]⟩ : Shape).ShapeCasts ⟨2, ![1, L]⟩)
    (hsb : (⟨2, ![1, L]⟩ : Shape).Broadcasts ⟨2, ![K, L]⟩)
    (hc : (⟨3, ![1, K, 1]⟩ : Shape).ShapeCasts ⟨2, ![K, 1]⟩) (hcb : (⟨2, ![K, 1]⟩ : Shape).Broadcasts ⟨2, ![K, L]⟩)
    (h : Fin K) (e : Fin L) :
    addf (mulf (shapeCast ⟨2, ![K, L]⟩ a ha) (broadcastTo ⟨2, ![K, L]⟩ (shapeCast ⟨2, ![K, 1]⟩ c0 hc) hcb))
        (mulf (mulf (shapeCast ⟨2, ![K, L]⟩ a ha) (broadcastTo ⟨2, ![K, L]⟩ (shapeCast ⟨2, ![1, L]⟩ s hs) hsb))
          (broadcastTo ⟨2, ![K, L]⟩ (shapeCast ⟨2, ![K, 1]⟩ c1 hc) hcb)) (ix2 h e)
      = a (ix2 h e) * c0 (ix3 (0 : Fin 1) h (0 : Fin 1))
          + a (ix2 h e) * s (ix2 (0 : Fin 1) e) * c1 (ix3 (0 : Fin 1) h (0 : Fin 1)) := by
  rw [addf_apply, mulf_apply, mulf_apply, mulf_apply, shapeCast_self, shapeCast_self,
    LibColumns.broadcastTo_a1_ab_apply, LibColumns.broadcastTo_a1_ab_apply, broadcastTo_1b_ab_apply,
    shapeCast_1ab_ab_apply, shapeCast_1ab_ab_apply]

/-- The hidden layer of a block on every lane. -/
theorem hidden_apply (wf : DotDims.WF (⟨2, ![128, 64]⟩ : Shape) ⟨2, ![64, L]⟩ ⟨2, ![128, L]⟩ [1] [0] [0] [1] [] [])
    (Wi : FVec Ideal ⟨3, ![1, 128, 64]⟩ .f32) (bi : FVec Ideal ⟨3, ![1, 128, 1]⟩ .f32) (x : FVec Ideal ⟨2, ![64, L]⟩ .f32)
    (hWi : (⟨3, ![1, 128, 64]⟩ : Shape).ShapeCasts ⟨2, ![128, 64]⟩) (hbi : (⟨3, ![1, 128, 1]⟩ : Shape).ShapeCasts ⟨2, ![128, 1]⟩)
    (hbci : (⟨2, ![128, 1]⟩ : Shape).Broadcasts ⟨2, ![128, L]⟩) (ht : FTy.bf16.bits < FTy.f32.bits)
    (f : Fin 128) (e : Fin L) :
    maximumf (addf (matmul (plainDims 128 64 L wf) none (truncf .bf16 (shapeCast ⟨2, ![128, 64]⟩ Wi hWi) ht) (truncf .bf16 x ht)
          (constant ⟨2, ![128, L]⟩ .f32 0x00000000#32)) (broadcastTo ⟨2, ![128, L]⟩ (shapeCast ⟨2, ![128, 1]⟩ bi hbi) hbci))
        (broadcast ⟨2, ![128, L]⟩ (Scalar.ofBits (F := Ideal) .f32 0x00000000#32)) (ix2 f e)
      = hidden zeroWord (fun h => x (ix2 h e)) (fun h f => Wi (ix3 (0 : Fin 1) f h)) (fun f => bi (ix3 (0 : Fin 1) f (0 : Fin 1))) f := by
  rw [maximumf_apply, dense_apply]
  rfl

/-- A feed-forward block with its residual on every lane. -/
theorem block_apply (wf1 : DotDims.WF (⟨2, ![128, 64]⟩ : Shape) ⟨2, ![64, L]⟩ ⟨2, ![128, L]⟩ [1] [0] [0] [1] [] [])
    (wf2 : DotDims.WF (⟨2, ![64, 128]⟩ : Shape) ⟨2, ![128, L]⟩ ⟨2, ![64, L]⟩ [1] [0] [0] [1] [] [])
    (Wi : FVec Ideal ⟨3, ![1, 128, 64]⟩ .f32) (bi : FVec Ideal ⟨3, ![1, 128, 1]⟩ .f32)
    (Wo : FVec Ideal ⟨3, ![1, 64, 128]⟩ .f32) (bo : FVec Ideal ⟨3, ![1, 64, 1]⟩ .f32) (x : FVec Ideal ⟨2, ![64, L]⟩ .f32)
    (hWi : (⟨3, ![1, 128, 64]⟩ : Shape).ShapeCasts ⟨2, ![128, 64]⟩) (hbi : (⟨3, ![1, 128, 1]⟩ : Shape).ShapeCasts ⟨2, ![128, 1]⟩)
    (hbci : (⟨2, ![128, 1]⟩ : Shape).Broadcasts ⟨2, ![128, L]⟩)
    (hWo : (⟨3, ![1, 64, 128]⟩ : Shape).ShapeCasts ⟨2, ![64, 128]⟩) (hbo : (⟨3, ![1, 64, 1]⟩ : Shape).ShapeCasts ⟨2, ![64, 1]⟩)
    (hbco : (⟨2, ![64, 1]⟩ : Shape).Broadcasts ⟨2, ![64, L]⟩) (ht : FTy.bf16.bits < FTy.f32.bits)
    (h : Fin 64) (e : Fin L) :
    addf x (addf (matmul (plainDims 64 128 L wf2) none (truncf .bf16 (shapeCast ⟨2, ![64, 128]⟩ Wo hWo) ht)
          (truncf .bf16 (maximumf (addf (matmul (plainDims 128 64 L wf1) none (truncf .bf16 (shapeCast ⟨2, ![128, 64]⟩ Wi hWi) ht) (truncf .bf16 x ht)
                (constant ⟨2, ![128, L]⟩ .f32 0x00000000#32)) (broadcastTo ⟨2, ![128, L]⟩ (shapeCast ⟨2, ![128, 1]⟩ bi hbi) hbci))
              (broadcast ⟨2, ![128, L]⟩ (Scalar.ofBits (F := Ideal) .f32 0x00000000#32))) ht)
          (constant ⟨2, ![64, L]⟩ .f32 0x00000000#32)) (broadcastTo ⟨2, ![64, L]⟩ (shapeCast ⟨2, ![64, 1]⟩ bo hbo) hbco)) (ix2 h e)
      = block zeroWord (fun h => x (ix2 h e)) (fun h f => Wi (ix3 (0 : Fin 1) f h)) (fun f => bi (ix3 (0 : Fin 1) f (0 : Fin 1)))
          (fun f h => Wo (ix3 (0 : Fin 1) h f)) (fun h => bo (ix3 (0 : Fin 1) h (0 : Fin 1))) h := by
  rw [addf_apply, dense_apply]
  refine congrArg (x (ix2 h e) + ·) (congrArg (· + bo (ix3 (0 : Fin 1) h (0 : Fin 1))) (Finset.sum_congr rfl fun f _ => ?_))
  rw [hidden_apply]

/-- The last rectifier and the projection to the heads on every lane, with the unit axis the store adds in front. -/
theorem head_apply (wf : DotDims.WF (⟨2, ![8, 64]⟩ : Shape) ⟨2, ![64, L]⟩ ⟨2, ![8, L]⟩ [1] [0] [0] [1] [] [])
    (Wf : FVec Ideal ⟨3, ![1, 8, 64]⟩ .f32) (bf : FVec Ideal ⟨3, ![1, 8, 1]⟩ .f32) (x : FVec Ideal ⟨2, ![64, L]⟩ .f32)
    (hWf : (⟨3, ![1, 8, 64]⟩ : Shape).ShapeCasts ⟨2, ![8, 64]⟩) (hbf : (⟨3, ![1, 8, 1]⟩ : Shape).ShapeCasts ⟨2, ![8, 1]⟩)
    (hbcf : (⟨2, ![8, 1]⟩ : Shape).Broadcasts ⟨2, ![8, L]⟩) (ht : FTy.bf16.bits < FTy.f32.bits)
    (hu : (⟨2, ![8, L]⟩ : Shape).ShapeCasts ⟨3, ![1, 8, L]⟩) (u : Fin 1) (n : Fin 8) (e : Fin L) :
    shapeCast ⟨3, ![1, 8, L]⟩ (addf (matmul (plainDims 8 64 L wf) none (truncf .bf16 (shapeCast ⟨2, ![8, 64]⟩ Wf hWf) ht)
          (truncf .bf16 (maximumf x (broadcast ⟨2, ![64, L]⟩ (Scalar.ofBits (F := Ideal) .f32 0x00000000#32))) ht)
          (constant ⟨2, ![8, L]⟩ .f32 0x00000000#32)) (broadcastTo ⟨2, ![8, L]⟩ (shapeCast ⟨2, ![8, 1]⟩ bf hbf) hbcf)) hu (ix3 u n e)
      = head zeroWord (fun h => x (ix2 h e)) (fun h n => Wf (ix3 (0 : Fin 1) n h)) (fun n => bf (ix3 (0 : Fin 1) n (0 : Fin 1))) n := by
  rw [shapeCast_ab_1ab_apply, dense_apply]
  rfl

end GroupedMlp.Lanes

end
-- ==== Proof.KernelPayload.lean ====
/-
  What one trip of the kernel's loop over the groups stores, read at an index.

  Trip `g` loads row `g` of every stacked weight and bias array (each a [1, ·, ·] slab), runs the tile's scaled
  features through the group's two feed-forward blocks and its head projection, and stores an [1, 8, 2048] slab. At
  (·, n, e) that slab is the per-edge function of the specification, at lane `e`'s feature column, lane `e`'s
  square-root degree and the slabs' rows and columns read transposed (the kernel keeps every weight matrix with its
  output axis first).
-/
import proofs.«141326_j66271345377501_2_alg».proof.Proof.Spec
import proofs.«141326_j66271345377501_2_alg».proof.Proof.KernelLayers
import proofs.«141326_j66271345377501_2_alg».proof.Proof.Gen.KernelIdeal.Skeleton

noncomputable section

namespace GroupedMlp.Payload

open Idealize.ShloMosaic Idealize.ShloMosaic.ValueIdx Cert.KernelIdeal Cert.KernelIdeal.Gen GroupedMlp.Lanes

/-- The tile's features after the degree scaling and the first block, at (h, e). -/
theorem afterFirstBlock_apply (v0 : Vec Ideal S64x2048 .f32) (v2 : Vec Ideal S1x2048 .f32) (v10 v13 : Vec Ideal S1x64x1 .f32)
    (v21 : Vec Ideal S1x128x64 .f32) (v25 : Vec Ideal S1x128x1 .f32) (v28 : Vec Ideal S1x64x128 .f32) (v32 : Vec Ideal S1x64x1 .f32)
    (h : Fin 64) (e : Fin 2048) :
    k0_pay4 (F := Ideal) (k0_pay1 v0) (k0_pay2 v0 v2) v10 v13 v21 v25 v28 v32 (ix2 h e)
      = block zeroWord
          (scaled (fun h => v0 (ix2 h e)) (v2 (ix2 (0 : Fin 1) e)) (fun h => v10 (ix3 (0 : Fin 1) h (0 : Fin 1)))
            (fun h => v13 (ix3 (0 : Fin 1) h (0 : Fin 1))))
          (fun h f => v21 (ix3 (0 : Fin 1) f h)) (fun f => v25 (ix3 (0 : Fin 1) f (0 : Fin 1)))
          (fun f h => v28 (ix3 (0 : Fin 1) h f)) (fun h => v32 (ix3 (0 : Fin 1) h (0 : Fin 1))) h := by
  unfold k0_pay4 k0_pay2 k0_pay1
  dsimp only
  refine (block_apply _ _ v21 v25 v28 v32 _ _ _ _ _ _ _ _ h e).trans ?_
  exact congrArg (fun X => block zeroWord X (fun h f => v21 (ix3 (0 : Fin 1) f h)) (fun f => v25 (ix3 (0 : Fin 1) f (0 : Fin 1)))
      (fun f h => v28 (ix3 (0 : Fin 1) h f)) (fun h => v32 (ix3 (0 : Fin 1) h (0 : Fin 1))) h)
    (funext fun h' => scaled_apply v0 v2 v10 v13 _ _ _ _ _ h' e)

/-- The second block and the head projection over any [64, 2048] features, at (u, n, e). -/
theorem secondBlockHead_apply (v44 : FVec Ideal S64x2048 .f32) (v46 : Vec Ideal S1x128x64 .f32) (v50 : Vec Ideal S1x128x1 .f32)
    (v53 : Vec Ideal S1x64x128 .f32) (v57 : Vec Ideal S1x64x1 .f32) (v73 : Vec Ideal S1x8x64 .f32) (v77 : Vec Ideal S1x8x1 .f32)
    (u : Fin 1) (n : Fin 8) (e : Fin 2048) :
    k0_pay3 (F := Ideal) v44 v46 v50 v53 v57 v73 v77 (ix3 u n e)
      = head zeroWord
          (block zeroWord (fun h => v44 (ix2 h e)) (fun h f => v46 (ix3 (0 : Fin 1) f h)) (fun f => v50 (ix3 (0 : Fin 1) f (0 : Fin 1)))
            (fun f h => v53 (ix3 (0 : Fin 1) h f)) (fun h => v57 (ix3 (0 : Fin 1) h (0 : Fin 1))))
          (fun h n => v73 (ix3 (0 : Fin 1) n h)) (fun n => v77 (ix3 (0 : Fin 1) n (0 : Fin 1))) n := by
  unfold k0_pay3
  refine (head_apply _ v73 v77 _ _ _ _ _ _ u n e).trans ?_
  exact congrArg (fun X => head zeroWord X (fun h n => v73 (ix3 (0 : Fin 1) n h)) (fun n => v77 (ix3 (0 : Fin 1) n (0 : Fin 1))) n)
    (funext fun h' => block_apply _ _ v46 v50 v53 v57 v44 _ _ _ _ _ _ _ h' e)

/-- ONE TRIP'S STORE at (u, n, e): the specification's per-edge function of lane `e` and the loaded slabs. -/
theorem trip_apply (v0 : Vec Ideal S64x2048 .f32) (v2 : Vec Ideal S1x2048 .f32) (v10 v13 : Vec Ideal S1x64x1 .f32)
    (v21 : Vec Ideal S1x128x64 .f32) (v25 : Vec Ideal S1x128x1 .f32) (v28 : Vec Ideal S1x64x128 .f32) (v32 : Vec Ideal S1x64x1 .f32)
    (v46 : Vec Ideal S1x128x64 .f32) (v50 : Vec Ideal S1x128x1 .f32) (v53 : Vec Ideal S1x64x128 .f32) (v57 : Vec Ideal S1x64x1 .f32)
    (v73 : Vec Ideal S1x8x64 .f32) (v77 : Vec Ideal S1x8x1 .f32) (u : Fin 1) (n : Fin 8) (e : Fin 2048) :
    k0_pay3 (F := Ideal) (k0_pay4 (k0_pay1 v0) (k0_pay2 v0 v2) v10 v13 v21 v25 v28 v32) v46 v50 v53 v57 v73 v77 (ix3 u n e)
      = edgeOut zeroWord (fun h => v0 (ix2 h e)) (v2 (ix2 (0 : Fin 1) e))
          (fun h => v10 (ix3 (0 : Fin 1) h (0 : Fin 1))) (fun h => v13 (ix3 (0 : Fin 1) h (0 : Fin 1)))
          (fun h f => v21 (ix3 (0 : Fin 1) f h)) (fun f => v25 (ix3 (0 : Fin 1) f (0 : Fin 1)))
          (fun f h => v28 (ix3 (0 : Fin 1) h f)) (fun h => v32 (ix3 (0 : Fin 1) h (0 : Fin 1)))
          (fun h f => v46 (ix3 (0 : Fin 1) f h)) (fun f => v50 (ix3 (0 : Fin 1) f (0 : Fin 1)))
          (fun f h => v53 (ix3 (0 : Fin 1) h f)) (fun h => v57 (ix3 (0 : Fin 1) h (0 : Fin 1)))
          (fun h n => v73 (ix3 (0 : Fin 1) n h)) (fun n => v77 (ix3 (0 : Fin 1) n (0 : Fin 1))) n := by
  rw [secondBlockHead_apply]
  unfold edgeOut
  exact congrArg (fun X => head zeroWord (block zeroWord X (fun h f => v46 (ix3 (0 : Fin 1) f h)) (fun f => v50 (ix3 (0 : Fin 1) f (0 : Fin 1)))
      (fun f h => v53 (ix3 (0 : Fin 1) h f)) (fun h => v57 (ix3 (0 : Fin 1) h (0 : Fin 1))))
      (fun h n => v73 (ix3 (0 : Fin 1) n h)) (fun n => v77 (ix3 (0 : Fin 1) n (0 : Fin 1))) n)
    (funext fun h' => afterFirstBlock_apply v0 v2 v10 v13 v21 v25 v28 v32 h' e)

end GroupedMlp.Payload

end
-- ==== Proof.LibTrailingUnit.lean ====
/-
  Two layout facts about a unit axis, read at an index.

  A reshape that appends an axis of extent one keeps every entry's row-major position, so the new array at
  (p, q, ·) — or (p, q, r, ·) — is the old array at (p, q) — or (p, q, r). (A bias kept as a column per group is such
  a reshape of a [groups, rows] array; so is a result given a trailing unit axis.)

  A stacked array [A, B, C] is A slabs of shape [B, C]. The load of the one-slab rectangle at offsets (k, 0, 0) reads,
  at (·, b, c), the array at (k, b, c): what a loop over the first axis sees of a stacked weight array on trip k.
-/
import Idealize.ShloMosaic.Lib.Pipeline.Value
import Idealize.ShloMosaic.Lib.Pipeline.FrameBody
import Idealize.ShloMosaic.Lib.ValueIdx

namespace Idealize.ShloMosaic.LibTrailingUnit

open Idealize.ShloMosaic Idealize.ShloMosaic.ValueIdx

section Reshape
variable {α : Type}

/-- An `[a, b]` array cast to `[a, b, 1]` reads, at `(p, q, u)`, the operand at `(p, q)`: the two indices have the
    same row-major position, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h (ix3 p q u) (ix2 p q) (by
    rw [Shape.rowMajor_val_two, Shape.rowMajor_val_three]
    have hu : u.val < 1 := u.isLt
    show p.val * b + q.val = (p.val * b + q.val) * 1 + u.val
    omega)

/-- An `[a, b, c]` array cast to `[a, b, c, 1]` reads, at `(p, q, r, u)`, the operand at `(p, q, r)`: the two indices
    have the same row-major position, whatever the unit coordinate. -/
theorem shapeCast_abc_abc1_apply {a b c : ℕ} (x : (⟨3, ![a, b, c]⟩ : Shape).Idx → α)
    (h : (⟨3, ![a, b, c]⟩ : Shape).ShapeCasts ⟨4, ![a, b, c, 1]⟩) (p : Fin a) (q : Fin b) (r : Fin c) (u : Fin 1) :
    shapeCast ⟨4, ![a, b, c, 1]⟩ x h (ix4 p q r u) = x (ix3 p q r) :=
  shapeCast_apply x h (ix4 p q r u) (ix3 p q r) (by
    rw [Shape.rowMajor_val_three, Shape.rowMajor_val_four]
    have hu : u.val < 1 := u.isLt
    show (p.val * b + q.val) * c + r.val = ((p.val * b + q.val) * c + r.val) * 1 + u.val
    omega)

end Reshape

/-- A load of the one-row slab at row `k` of a stacked `[A, B, C]` array reads, at `(·, b, c)`, the array at `(k, b, c)`. -/
theorem ld_slab {Val : EltTy → Type} {e' : EltTy} {A B C : ℕ} (X : (⟨3, ![A, B, C]⟩ : Shape).Idx → Val e') (off : Fin 3 → ℕ)
    (inb : ∀ a, off a + (![1, B, C] : Fin 3 → ℕ) a ≤ (⟨3, ![A, B, C]⟩ : Shape).size a) (k : Fin A) (hoff : off = ![k.val, 0, 0])
    (u : Fin 1) (b : Fin B) (cc : Fin C) :
    View.ld X (Rect.unit (s := ⟨3, ![A, B, C]⟩) off ![1, B, C] inb) (ix3 u b cc) = X (ix3 k b cc) := by
  show X ((Rect.unit (s := ⟨3, ![A, B, C]⟩) off ![1, B, C] inb).idx (ix3 u b cc)) = X (ix3 k b cc)
  refine congrArg X (funext fun a => Fin.ext ?_)
  subst hoff
  have hu : u.val = 0 := by omega
  match a with
  | ⟨0, _⟩ => show k.val + 1 * u.val = k.val; omega
  | ⟨1, _⟩ => show 0 + 1 * b.val = b.val; omega
  | ⟨2, _⟩ => show 0 + 1 * cc.val = cc.val; omega

end Idealize.ShloMosaic.LibTrailingUnit
-- ==== Proof.KernelBlock.lean ====
/-
  What one grid point leaves in its output block.

  A point's output block is a [10, 8, 2048] array that the loop over the groups fills slab by slab: trip `g` stores the
  [1, 8, 2048] slab at row `g`, computed from row `g` of every stacked weight and bias block and from the point's own
  tile of features and square-root degrees. So every stored slab is a restriction of ONE function of the block index
  (g, n, e) — the per-edge function of the specification at lane `e`, group `g`, head `n` — and the ten slabs cover
  the block: the block holds that function.
-/
import proofs.«141326_j66271345377501_2_alg».proof.Proof.KernelPayload
import proofs.«141326_j66271345377501_2_alg».proof.Proof.LibTrailingUnit
import proofs.«141326_j66271345377501_2_alg».proof.Proof.Gen.KernelIdeal.Frame

set_option maxRecDepth 16384

noncomputable section

namespace GroupedMlp.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen GroupedMlp.Lanes Idealize.ShloMosaic.LibTrailingUnit

/-- The block's contents as one function of its index (g, n, e) and the point's fourteen input blocks. -/
def blockOut (x0 : Vec Ideal S64x2048 .f32) (x1 : Vec Ideal S1x2048 .f32) (x2 : Vec Ideal S10x64x1 .f32) (x3 : Vec Ideal S10x64x1 .f32) (x4 : Vec Ideal S10x128x64 .f32) (x5 : Vec Ideal S10x128x1 .f32) (x6 : Vec Ideal S10x64x128 .f32) (x7 : Vec Ideal S10x64x1 .f32) (x8 : Vec Ideal S10x128x64 .f32) (x9 : Vec Ideal S10x128x1 .f32) (x10 : Vec Ideal S10x64x128 .f32) (x11 : Vec Ideal S10x64x1 .f32) (x12 : Vec Ideal S10x8x64 .f32) (x13 : Vec Ideal S10x8x1 .f32) : S10x8x2048.Idx → EReal := fun y =>
  edgeOut zeroWord (fun h => x0 (ix2 h (y 2))) (x1 (ix2 (0 : Fin 1) (y 2)))
    (fun h => x2 (ix3 (y 0) h (0 : Fin 1))) (fun h => x3 (ix3 (y 0) h (0 : Fin 1)))
    (fun h f => x4 (ix3 (y 0) f h)) (fun f => x5 (ix3 (y 0) f (0 : Fin 1)))
    (fun f h => x6 (ix3 (y 0) h f)) (fun h => x7 (ix3 (y 0) h (0 : Fin 1)))
    (fun h f => x8 (ix3 (y 0) f h)) (fun f => x9 (ix3 (y 0) f (0 : Fin 1)))
    (fun f h => x10 (ix3 (y 0) h f)) (fun h => x11 (ix3 (y 0) h (0 : Fin 1)))
    (fun h n => x12 (ix3 (y 0) n h)) (fun n => x13 (ix3 (y 0) n (0 : Fin 1))) (y 1)

/-- A load of the one-row slab at row `k` of a whole buffer holding `X` reads, at (·, b, c), `X` at (k, b, c). -/
theorem load_slab {A B C : ℕ} (mr : Memref sig .tc .vmem ⟨3, ![A, B, C]⟩ .f32) (hm : mr.IsWhole)
    (X : Vec Ideal ⟨3, ![A, B, C]⟩ .f32) (off : Fin 3 → ℕ)
    (inb : ∀ a, off a + (![1, B, C] : Fin 3 → ℕ) a ≤ (⟨3, ![A, B, C]⟩ : Shape).size a) (k : Fin A) (hoff : off = ![k.val, 0, 0])
    (u : Fin 1) (b : Fin B) (cc : Fin C) :
    View.readAt (Elt Ideal) mr.view (Rect.unit (s := ⟨3, ![A, B, C]⟩) off ![1, B, C] inb).toLoadRect (hm.unread X) (ix3 u b cc)
      = X (ix3 k b cc) := by
  rw [View.readAt_eq_ld, hm.read_unread]
  exact ld_slab X off inb k hoff u b cc

/-- A load of a whole two-axis buffer holding `X` reads `X`. -/
theorem load_tile {A B : ℕ} (mr : Memref sig .tc .vmem ⟨2, ![A, B]⟩ .f32) (hm : mr.IsWhole) (X : Vec Ideal ⟨2, ![A, B]⟩ .f32)
    (inb : ∀ a, (![0, 0] : Fin 2 → ℕ) a + (⟨2, ![A, B]⟩ : Shape).size a ≤ (⟨2, ![A, B]⟩ : Shape).size a) :
    View.readAt (Elt Ideal) mr.view (Rect.unit (s := ⟨2, ![A, B]⟩) ![0, 0] (⟨2, ![A, B]⟩ : Shape).size inb).toLoadRect (hm.unread X) = X := by
  rw [View.readAt_eq_ld, hm.read_unread]
  exact View.ld_unit_zero (funext fun a => by fin_cases a <;> rfl) inb X

/-- Every slab one trip of the loop stores is the block function restricted to the slab's rectangle. -/
theorem trip_agrees (c : Dev nD) (i : grid0.Coords) (arg1 : Memref sig .tc .vmem S64x2048 .f32) (harg1 : arg1.IsWhole) (arg2 : Memref sig .tc .vmem S1x2048 .f32) (harg2 : arg2.IsWhole) (arg3 : Memref sig .tc .vmem S10x64x1 .f32) (harg3 : arg3.IsWhole) (arg4 : Memref sig .tc .vmem S10x64x1 .f32) (harg4 : arg4.IsWhole) (arg5 : Memref sig .tc .vmem S10x128x64 .f32) (harg5 : arg5.IsWhole) (arg6 : Memref sig .tc .vmem S10x128x1 .f32) (harg6 : arg6.IsWhole) (arg7 : Memref sig .tc .vmem S10x64x128 .f32) (harg7 : arg7.IsWhole) (arg8 : Memref sig .tc .vmem S10x64x1 .f32) (harg8 : arg8.IsWhole) (arg9 : Memref sig .tc .vmem S10x128x64 .f32) (harg9 : arg9.IsWhole) (arg10 : Memref sig .tc .vmem S10x128x1 .f32) (harg10 : arg10.IsWhole) (arg11 : Memref sig .tc .vmem S10x64x128 .f32) (harg11 : arg11.IsWhole) (arg12 : Memref sig .tc .vmem S10x64x1 .f32) (harg12 : arg12.IsWhole) (arg13 : Memref sig .tc .vmem S10x8x64 .f32) (harg13 : arg13.IsWhole) (arg14 : Memref sig .tc .vmem S10x8x1 .f32) (harg14 : arg14.IsWhole) (arg15 : Memref sig .tc .vmem S10x8x2048 .f32) (harg15 : arg15.IsWhole)
    (x0 : Vec Ideal S64x2048 .f32) (x1 : Vec Ideal S1x2048 .f32) (x2 : Vec Ideal S10x64x1 .f32) (x3 : Vec Ideal S10x64x1 .f32) (x4 : Vec Ideal S10x128x64 .f32) (x5 : Vec Ideal S10x128x1 .f32) (x6 : Vec Ideal S10x64x128 .f32) (x7 : Vec Ideal S10x64x1 .f32) (x8 : Vec Ideal S10x128x64 .f32) (x9 : Vec Ideal S10x128x1 .f32) (x10 : Vec Ideal S10x64x128 .f32) (x11 : Vec Ideal S10x64x1 .f32) (x12 : Vec Ideal S10x8x64 .f32) (x13 : Vec Ideal S10x8x1 .f32) (k : Fin k0_t1_loop.trips) :
    ∀ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 (harg3.unread x2) (harg4.unread x3) (harg5.unread x4) (harg6.unread x5) (harg7.unread x6) (harg8.unread x7) (harg9.unread x8) (harg10.unread x9) (harg11.unread x10) (harg12.unread x11) (harg13.unread x12) (harg14.unread x13) k,
      ∀ x : p.1.shape.Idx, p.2 x = blockOut x0 x1 x2 x3 x4 x5 x6 x7 x8 x9 x10 x11 x12 x13 (p.1.emb x) := by
  unfold tripL_k0_t1 trip_k0_t1
  dsimp only
  unfold trip_k0_t1.sl.r trip_k0_t1.sl.r_1
  intro p hp
  rw [List.mem_singleton] at hp
  subst hp
  intro (x : (⟨3, ![1, 8, 2048]⟩ : Shape).Idx)
  have hk : k.val < 10 := Nat.lt_of_lt_of_le k.isLt k0_t1_abs.2.1
  obtain ⟨u, n, e, rfl⟩ : ∃ (u : Fin 1) (n : Fin 8) (e : Fin 2048), x = ix3 u n e := ⟨x 0, x 1, x 2, eq_ix3 x⟩
  have hemb : (Rect.unit (s := S10x8x2048) (k0_off7 k) ![1, 8, 2048] (k0_off7_inb k)).emb (ix3 u n e)
      = ix3 (⟨k.val, hk⟩ : Fin 10) n e := funext fun a => Fin.ext (by
    have hu : u.val = 0 := by omega
    have ho := k0_off7_eq k
    match a with
    | ⟨0, _⟩ => show (k0_off7 k) 0 + 1 * u.val = k.val; rw [ho]; show k.val + 1 * u.val = k.val; omega
    | ⟨1, _⟩ => show (k0_off7 k) 1 + 1 * n.val = n.val; rw [ho]; show 0 + 1 * n.val = n.val; omega
    | ⟨2, _⟩ => show (k0_off7 k) 2 + 1 * e.val = e.val; rw [ho]; show 0 + 1 * e.val = e.val; omega)
  show k0_pay3 (k0_pay4 (k0_pay1 x0) (k0_pay2 x0 x1) _ _ _ _ _ _) _ _ _ _ _ _ (ix3 u n e)
    = blockOut x0 x1 x2 x3 x4 x5 x6 x7 x8 x9 x10 x11 x12 x13 ((Rect.unit (s := S10x8x2048) (k0_off7 k) ![1, 8, 2048] (k0_off7_inb k)).emb (ix3 u n e))
  rw [hemb, Payload.trip_apply]
  unfold blockOut
  simp only [load_slab _ _ _ _ _ (⟨k.val, hk⟩ : Fin 10) (k0_off1_eq k), load_slab _ _ _ _ _ (⟨k.val, hk⟩ : Fin 10) (k0_off2_eq k),
    load_slab _ _ _ _ _ (⟨k.val, hk⟩ : Fin 10) (k0_off3_eq k), load_slab _ _ _ _ _ (⟨k.val, hk⟩ : Fin 10) (k0_off4_eq k),
    load_slab _ _ _ _ _ (⟨k.val, hk⟩ : Fin 10) (k0_off5_eq k), load_slab _ _ _ _ _ (⟨k.val, hk⟩ : Fin 10) (k0_off6_eq k)]

/-- So is every slab of the trips before any one. -/
theorem pieces_agree (c : Dev nD) (i : grid0.Coords) (arg1 : Memref sig .tc .vmem S64x2048 .f32) (harg1 : arg1.IsWhole) (arg2 : Memref sig .tc .vmem S1x2048 .f32) (harg2 : arg2.IsWhole) (arg3 : Memref sig .tc .vmem S10x64x1 .f32) (harg3 : arg3.IsWhole) (arg4 : Memref sig .tc .vmem S10x64x1 .f32) (harg4 : arg4.IsWhole) (arg5 : Memref sig .tc .vmem S10x128x64 .f32) (harg5 : arg5.IsWhole) (arg6 : Memref sig .tc .vmem S10x128x1 .f32) (harg6 : arg6.IsWhole) (arg7 : Memref sig .tc .vmem S10x64x128 .f32) (harg7 : arg7.IsWhole) (arg8 : Memref sig .tc .vmem S10x64x1 .f32) (harg8 : arg8.IsWhole) (arg9 : Memref sig .tc .vmem S10x128x64 .f32) (harg9 : arg9.IsWhole) (arg10 : Memref sig .tc .vmem S10x128x1 .f32) (harg10 : arg10.IsWhole) (arg11 : Memref sig .tc .vmem S10x64x128 .f32) (harg11 : arg11.IsWhole) (arg12 : Memref sig .tc .vmem S10x64x1 .f32) (harg12 : arg12.IsWhole) (arg13 : Memref sig .tc .vmem S10x8x64 .f32) (harg13 : arg13.IsWhole) (arg14 : Memref sig .tc .vmem S10x8x1 .f32) (harg14 : arg14.IsWhole) (arg15 : Memref sig .tc .vmem S10x8x2048 .f32) (harg15 : arg15.IsWhole)
    (x0 : Vec Ideal S64x2048 .f32) (x1 : Vec Ideal S1x2048 .f32) (x2 : Vec Ideal S10x64x1 .f32) (x3 : Vec Ideal S10x64x1 .f32) (x4 : Vec Ideal S10x128x64 .f32) (x5 : Vec Ideal S10x128x1 .f32) (x6 : Vec Ideal S10x64x128 .f32) (x7 : Vec Ideal S10x64x1 .f32) (x8 : Vec Ideal S10x128x64 .f32) (x9 : Vec Ideal S10x128x1 .f32) (x10 : Vec Ideal S10x64x128 .f32) (x11 : Vec Ideal S10x64x1 .f32) (x12 : Vec Ideal S10x8x64 .f32) (x13 : Vec Ideal S10x8x1 .f32) :
    ∀ (j : ℕ), ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 (harg3.unread x2) (harg4.unread x3) (harg5.unread x4) (harg6.unread x5) (harg7.unread x6) (harg8.unread x7) (harg9.unread x8) (harg10.unread x9) (harg11.unread x10) (harg12.unread x11) (harg13.unread x12) (harg14.unread x13) j,
      ∀ x : p.1.shape.Idx, p.2 x = blockOut x0 x1 x2 x3 x4 x5 x6 x7 x8 x9 x10 x11 x12 x13 (p.1.emb x)
  | 0 => by
    intro p hp
    rw [pb_k0_t1.eq_1] at hp
    exact absurd hp List.not_mem_nil
  | j + 1 => by
    intro p hp
    rw [pb_k0_t1.eq_2] at hp
    unfold pb_k0_t1Step at hp
    split at hp
    · rename_i hj
      rcases List.mem_append.mp hp with h | h
      · exact trip_agrees c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 ⟨j, hj⟩ p h
      · exact pieces_agree c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 j p h
    · exact pieces_agree c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 j p hp

/-- THE BLOCK a point leaves: the block function of the point's input blocks. -/
theorem out_eq (c : Dev nD) (i : grid0.Coords) (arg1 : Memref sig .tc .vmem S64x2048 .f32) (harg1 : arg1.IsWhole) (arg2 : Memref sig .tc .vmem S1x2048 .f32) (harg2 : arg2.IsWhole) (arg3 : Memref sig .tc .vmem S10x64x1 .f32) (harg3 : arg3.IsWhole) (arg4 : Memref sig .tc .vmem S10x64x1 .f32) (harg4 : arg4.IsWhole) (arg5 : Memref sig .tc .vmem S10x128x64 .f32) (harg5 : arg5.IsWhole) (arg6 : Memref sig .tc .vmem S10x128x1 .f32) (harg6 : arg6.IsWhole) (arg7 : Memref sig .tc .vmem S10x64x128 .f32) (harg7 : arg7.IsWhole) (arg8 : Memref sig .tc .vmem S10x64x1 .f32) (harg8 : arg8.IsWhole) (arg9 : Memref sig .tc .vmem S10x128x64 .f32) (harg9 : arg9.IsWhole) (arg10 : Memref sig .tc .vmem S10x128x1 .f32) (harg10 : arg10.IsWhole) (arg11 : Memref sig .tc .vmem S10x64x128 .f32) (harg11 : arg11.IsWhole) (arg12 : Memref sig .tc .vmem S10x64x1 .f32) (harg12 : arg12.IsWhole) (arg13 : Memref sig .tc .vmem S10x8x64 .f32) (harg13 : arg13.IsWhole) (arg14 : Memref sig .tc .vmem S10x8x1 .f32) (harg14 : arg14.IsWhole) (arg15 : Memref sig .tc .vmem S10x8x2048 .f32) (harg15 : arg15.IsWhole)
    (x0 : Vec Ideal S64x2048 .f32) (x1 : Vec Ideal S1x2048 .f32) (x2 : Vec Ideal S10x64x1 .f32) (x3 : Vec Ideal S10x64x1 .f32) (x4 : Vec Ideal S10x128x64 .f32) (x5 : Vec Ideal S10x128x1 .f32) (x6 : Vec Ideal S10x64x128 .f32) (x7 : Vec Ideal S10x64x1 .f32) (x8 : Vec Ideal S10x128x64 .f32) (x9 : Vec Ideal S10x128x1 .f32) (x10 : Vec Ideal S10x64x128 .f32) (x11 : Vec Ideal S10x64x1 .f32) (x12 : Vec Ideal S10x8x64 .f32) (x13 : Vec Ideal S10x8x1 .f32) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 = blockOut x0 x1 x2 x3 x4 x5 x6 x7 x8 x9 x10 x11 x12 x13 := by
  funext y
  unfold out0_A_14
  refine View.read_writes_apply_of_pieces _ _ (blockOut x0 x1 x2 x3 x4 x5 x6 x7 x8 x9 x10 x11 x12 x13) _ ?_ y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 y)
  have hL : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13).1
      = pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 (harg3.unread x2) (harg4.unread x3) (harg5.unread x4) (harg6.unread x5) (harg7.unread x6) (harg8.unread x7) (harg9.unread x8) (harg10.unread x9) (harg11.unread x10) (harg12.unread x11) (harg13.unread x12) (harg14.unread x13)
          (Scf.trips (0#32) (Scalar.addi 0#32 10#32) 1#32) := by
    unfold kernelRun0_A
    dsimp only
    rw [load_tile arg1 harg1 x0, load_tile arg2 harg2 x1]
  rw [hL]
  exact pieces_agree c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 _

end GroupedMlp.Block

end
-- ==== Proof.KernelArray.lean ====
/-
  From the points' blocks to the whole output array.

  Point `t` of the 64 works on edges t·2048 … t·2048 + 2047: its feature tile is columns of the transposed feature
  array, its square-root degrees the same lanes of the gathered row, and the weight and bias blocks are the whole
  stacked arrays at every point. Its output block is the [10, 8, 2048] box at lane offset t·2048 of the [10, 8, 131072]
  array. The 64 boxes tile that array, and each holds the per-edge function at its own edges; so the array holds, at
  (g, n, e), the per-edge function of edge `e`, group `g`, head `n`, read from the arrays the region was handed.
-/
import proofs.«141326_j66271345377501_2_alg».proof.Proof.KernelBlock

set_option maxRecDepth 16384

noncomputable section

namespace GroupedMlp.Array

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen GroupedMlp.Lanes

variable (m : (ℓ : Loc nD τ sig) → Buf (Elt Ideal) ℓ)

/-- The output array as one function of its index (g, n, e) and the arrays the region finds. -/
def arrayOut (c : Dev nD) : S10x8x131072.Idx → EReal := fun i =>
  edgeOut zeroWord (fun h => V m c main_v11 (ix2 h (i 2))) (V m c main_v10 (ix2 (0 : Fin 1) (i 2)))
    (fun h => V m c main_v14 (ix3 (i 0) h (0 : Fin 1))) (fun h => V m c main_v17 (ix3 (i 0) h (0 : Fin 1)))
    (fun h f => V m c main_v18 (ix3 (i 0) f h)) (fun f => V m c main_v23 (ix3 (i 0) f (0 : Fin 1)))
    (fun f h => V m c main_v19 (ix3 (i 0) h f)) (fun h => V m c main_v24 (ix3 (i 0) h (0 : Fin 1)))
    (fun h f => V m c main_v20 (ix3 (i 0) f h)) (fun f => V m c main_v25 (ix3 (i 0) f (0 : Fin 1)))
    (fun f h => V m c main_v21 (ix3 (i 0) h f)) (fun h => V m c main_v26 (ix3 (i 0) h (0 : Fin 1)))
    (fun h n => V m c main_v22 (ix3 (i 0) n h)) (fun n => V m c main_v27 (ix3 (i 0) n (0 : Fin 1))) (i 1)

/-- The edge that lane `e` of point `t` is. -/
def lane (t : Fin cfg0.N) (e : Fin 2048) : Fin 131072 :=
  ⟨t.val * 2048 + e.val, by have := t.isLt; have h : cfg0.N = 64 := N_0; have := e.isLt; omega⟩

/-- The per-edge function depends only on its arguments: equal feature row, degree, coefficient rows, weights, biases
    and head give equal values. -/
theorem edgeOut_congr {z : EReal} {a a' : Fin 64 → EReal} {s s' : EReal} {c0 c0' c1 c1' : Fin 64 → EReal}
    {wi1 wi1' : Fin 64 → Fin 128 → EReal} {bi1 bi1' : Fin 128 → EReal} {wo1 wo1' : Fin 128 → Fin 64 → EReal} {bo1 bo1' : Fin 64 → EReal}
    {wi2 wi2' : Fin 64 → Fin 128 → EReal} {bi2 bi2' : Fin 128 → EReal} {wo2 wo2' : Fin 128 → Fin 64 → EReal} {bo2 bo2' : Fin 64 → EReal}
    {wf wf' : Fin 64 → Fin 8 → EReal} {bf bf' : Fin 8 → EReal} {n n' : Fin 8}
    (ha : a = a') (hs : s = s') (hc0 : c0 = c0') (hc1 : c1 = c1') (hwi1 : wi1 = wi1') (hbi1 : bi1 = bi1') (hwo1 : wo1 = wo1')
    (hbo1 : bo1 = bo1') (hwi2 : wi2 = wi2') (hbi2 : bi2 = bi2') (hwo2 : wo2 = wo2') (hbo2 : bo2 = bo2') (hwf : wf = wf')
    (hbf : bf = bf') (hn : n = n') :
    edgeOut z a s c0 c1 wi1 bi1 wo1 bo1 wi2 bi2 wo2 bo2 wf bf n = edgeOut z a' s' c0' c1' wi1' bi1' wo1' bo1' wi2' bi2' wo2' bo2' wf' bf' n' := by
  subst ha hs hc0 hc1 hwi1 hbi1 hwo1 hbo1 hwi2 hbi2 hwo2 hbo2 hwf hbf hn
  rfl

/-! ## The index maps, decided over the 64 points -/

theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx14 : ∀ t : Fin cfg0.N, win0_14.index t (0 : Fin 3) = 0 ∧ win0_14.index t (1 : Fin 3) = 0 ∧ win0_14.index t (2 : Fin 3) = t.val :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)
theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)
theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)
theorem idx10 : ∀ t : Fin cfg0.N, win0_10.index t (0 : Fin 3) = 0 ∧ win0_10.index t (1 : Fin 3) = 0 ∧ win0_10.index t (2 : Fin 3) = 0 :=
  (by decide +kernel : ∀ t : Fin grid0.N, _)
theorem idx11 : ∀ t : Fin cfg0.N, win0_11.index t (0 : Fin 3) = 0 ∧ win0_11.index t (1 : Fin 3) = 0 ∧ win0_11.index t (2 : Fin 3) = 0 :=
  (by decide +kernel : ∀ t : Fin grid0.N, _)
theorem idx12 : ∀ t : Fin cfg0.N, win0_12.index t (0 : Fin 3) = 0 ∧ win0_12.index t (1 : Fin 3) = 0 ∧ win0_12.index t (2 : Fin 3) = 0 :=
  (by decide +kernel : ∀ t : Fin grid0.N, _)
theorem idx13 : ∀ t : Fin cfg0.N, win0_13.index t (0 : Fin 3) = 0 ∧ win0_13.index t (1 : Fin 3) = 0 ∧ win0_13.index t (2 : Fin 3) = 0 :=
  (by decide +kernel : ∀ t : Fin grid0.N, _)

/-! ## Each input block, read off the array the region finds -/

/-- The feature tile of point `t`: the columns of its edges. -/
theorem blk0 (c : Dev nD) (t : Fin cfg0.N) (h : Fin 64) (e : Fin 2048) :
    iblk m c 0 t (ix2 h e) = V m c main_v11 (ix2 h (lane t e)) := by
  obtain ⟨h0, h1⟩ := idx0 t
  show V m c main_v11 (((cfg0.win 0).blk t).view.emb (ix2 h e)) = _
  refine congrArg (V m c main_v11) (funext fun ax => Fin.ext ?_)
  match ax with
  | ⟨0, _⟩ => show win0_0.index t (0 : Fin 2) * 64 + 1 * h.val = h.val; omega
  | ⟨1, _⟩ => show win0_0.index t (1 : Fin 2) * 2048 + 1 * e.val = t.val * 2048 + e.val; omega

/-- The square-root degrees of point `t`'s edges. -/
theorem blk1 (c : Dev nD) (t : Fin cfg0.N) (u : Fin 1) (e : Fin 2048) :
    iblk m c 1 t (ix2 u e) = V m c main_v10 (ix2 u (lane t e)) := by
  obtain ⟨h0, h1⟩ := idx1 t
  show V m c main_v10 (((cfg0.win 1).blk t).view.emb (ix2 u e)) = _
  refine congrArg (V m c main_v10) (funext fun ax => Fin.ext ?_)
  match ax with
  | ⟨0, _⟩ => show win0_1.index t (0 : Fin 2) * 1 + 1 * u.val = u.val; omega
  | ⟨1, _⟩ => show win0_1.index t (1 : Fin 2) * 2048 + 1 * e.val = t.val * 2048 + e.val; omega

theorem blk2 (c : Dev nD) (t : Fin cfg0.N) (a : Fin 10) (b : Fin 64) (cc : Fin 1) :
    iblk m c 2 t (ix3 a b cc) = V m c main_v14 (ix3 a b cc) := by
  obtain ⟨h0, h1, h2⟩ := idx2 t
  show V m c main_v14 (((cfg0.win 2).blk t).view.emb (ix3 a b cc)) = _
  refine congrArg (V m c main_v14) (funext fun ax => Fin.ext ?_)
  match ax with
  | ⟨0, _⟩ => show win0_2.index t (0 : Fin 3) * 10 + 1 * a.val = a.val; omega
  | ⟨1, _⟩ => show win0_2.index t (1 : Fin 3) * 64 + 1 * b.val = b.val; omega
  | ⟨2, _⟩ => show win0_2.index t (2 : Fin 3) * 1 + 1 * cc.val = cc.val; omega

theorem blk3 (c : Dev nD) (t : Fin cfg0.N) (a : Fin 10) (b : Fin 64) (cc : Fin 1) :
    iblk m c 3 t (ix3 a b cc) = V m c main_v17 (ix3 a b cc) := by
  obtain ⟨h0, h1, h2⟩ := idx3 t
  show V m c main_v17 (((cfg0.win 3).blk t).view.emb (ix3 a b cc)) = _
  refine congrArg (V m c main_v17) (funext fun ax => Fin.ext ?_)
  match ax with
  | ⟨0, _⟩ => show win0_3.index t (0 : Fin 3) * 10 + 1 * a.val = a.val; omega
  | ⟨1, _⟩ => show win0_3.index t (1 : Fin 3) * 64 + 1 * b.val = b.val; omega
  | ⟨2, _⟩ => show win0_3.index t (2 : Fin 3) * 1 + 1 * cc.val = cc.val; omega

theorem blk4 (c : Dev nD) (t : Fin cfg0.N) (a : Fin 10) (b : Fin 128) (cc : Fin 64) :
    iblk m c 4 t (ix3 a b cc) = V m c main_v18 (ix3 a b cc) := by
  obtain ⟨h0, h1, h2⟩ := idx4 t
  show V m c main_v18 (((cfg0.win 4).blk t).view.emb (ix3 a b cc)) = _
  refine congrArg (V m c main_v18) (funext fun ax => Fin.ext ?_)
  match ax with
  | ⟨0, _⟩ => show win0_4.index t (0 : Fin 3) * 10 + 1 * a.val = a.val; omega
  | ⟨1, _⟩ => show win0_4.index t (1 : Fin 3) * 128 + 1 * b.val = b.val; omega
  | ⟨2, _⟩ => show win0_4.index t (2 : Fin 3) * 64 + 1 * cc.val = cc.val; omega

theorem blk5 (c : Dev nD) (t : Fin cfg0.N) (a : Fin 10) (b : Fin 128) (cc : Fin 1) :
    iblk m c 5 t (ix3 a b cc) = V m c main_v23 (ix3 a b cc) := by
  obtain ⟨h0, h1, h2⟩ := idx5 t
  show V m c main_v23 (((cfg0.win 5).blk t).view.emb (ix3 a b cc)) = _
  refine congrArg (V m c main_v23) (funext fun ax => Fin.ext ?_)
  match ax with
  | ⟨0, _⟩ => show win0_5.index t (0 : Fin 3) * 10 + 1 * a.val = a.val; omega
  | ⟨1, _⟩ => show win0_5.index t (1 : Fin 3) * 128 + 1 * b.val = b.val; omega
  | ⟨2, _⟩ => show win0_5.index t (2 : Fin 3) * 1 + 1 * cc.val = cc.val; omega

theorem blk6 (c : Dev nD) (t : Fin cfg0.N) (a : Fin 10) (b : Fin 64) (cc : Fin 128) :
    iblk m c 6 t (ix3 a b cc) = V m c main_v19 (ix3 a b cc) := by
  obtain ⟨h0, h1, h2⟩ := idx6 t
  show V m c main_v19 (((cfg0.win 6).blk t).view.emb (ix3 a b cc)) = _
  refine congrArg (V m c main_v19) (funext fun ax => Fin.ext ?_)
  match ax with
  | ⟨0, _⟩ => show win0_6.index t (0 : Fin 3) * 10 + 1 * a.val = a.val; omega
  | ⟨1, _⟩ => show win0_6.index t (1 : Fin 3) * 64 + 1 * b.val = b.val; omega
  | ⟨2, _⟩ => show win0_6.index t (2 : Fin 3) * 128 + 1 * cc.val = cc.val; omega

theorem blk7 (c : Dev nD) (t : Fin cfg0.N) (a : Fin 10) (b : Fin 64) (cc : Fin 1) :
    iblk m c 7 t (ix3 a b cc) = V m c main_v24 (ix3 a b cc) := by
  obtain ⟨h0, h1, h2⟩ := idx7 t
  show V m c main_v24 (((cfg0.win 7).blk t).view.emb (ix3 a b cc)) = _
  refine congrArg (V m c main_v24) (funext fun ax => Fin.ext ?_)
  match ax with
  | ⟨0, _⟩ => show win0_7.index t (0 : Fin 3) * 10 + 1 * a.val = a.val; omega
  | ⟨1, _⟩ => show win0_7.index t (1 : Fin 3) * 64 + 1 * b.val = b.val; omega
  | ⟨2, _⟩ => show win0_7.index t (2 : Fin 3) * 1 + 1 * cc.val = cc.val; omega

theorem blk8 (c : Dev nD) (t : Fin cfg0.N) (a : Fin 10) (b : Fin 128) (cc : Fin 64) :
    iblk m c 8 t (ix3 a b cc) = V m c main_v20 (ix3 a b cc) := by
  obtain ⟨h0, h1, h2⟩ := idx8 t
  show V m c main_v20 (((cfg0.win 8).blk t).view.emb (ix3 a b cc)) = _
  refine congrArg (V m c main_v20) (funext fun ax => Fin.ext ?_)
  match ax with
  | ⟨0, _⟩ => show win0_8.index t (0 : Fin 3) * 10 + 1 * a.val = a.val; omega
  | ⟨1, _⟩ => show win0_8.index t (1 : Fin 3) * 128 + 1 * b.val = b.val; omega
  | ⟨2, _⟩ => show win0_8.index t (2 : Fin 3) * 64 + 1 * cc.val = cc.val; omega

theorem blk9 (c : Dev nD) (t : Fin cfg0.N) (a : Fin 10) (b : Fin 128) (cc : Fin 1) :
    iblk m c 9 t (ix3 a b cc) = V m c main_v25 (ix3 a b cc) := by
  obtain ⟨h0, h1, h2⟩ := idx9 t
  show V m c main_v25 (((cfg0.win 9).blk t).view.emb (ix3 a b cc)) = _
  refine congrArg (V m c main_v25) (funext fun ax => Fin.ext ?_)
  match ax with
  | ⟨0, _⟩ => show win0_9.index t (0 : Fin 3) * 10 + 1 * a.val = a.val; omega
  | ⟨1, _⟩ => show win0_9.index t (1 : Fin 3) * 128 + 1 * b.val = b.val; omega
  | ⟨2, _⟩ => show win0_9.index t (2 : Fin 3) * 1 + 1 * cc.val = cc.val; omega

theorem blk10 (c : Dev nD) (t : Fin cfg0.N) (a : Fin 10) (b : Fin 64) (cc : Fin 128) :
    iblk m c 10 t (ix3 a b cc) = V m c main_v21 (ix3 a b cc) := by
  obtain ⟨h0, h1, h2⟩ := idx10 t
  show V m c main_v21 (((cfg0.win 10).blk t).view.emb (ix3 a b cc)) = _
  refine congrArg (V m c main_v21) (funext fun ax => Fin.ext ?_)
  match ax with
  | ⟨0, _⟩ => show win0_10.index t (0 : Fin 3) * 10 + 1 * a.val = a.val; omega
  | ⟨1, _⟩ => show win0_10.index t (1 : Fin 3) * 64 + 1 * b.val = b.val; omega
  | ⟨2, _⟩ => show win0_10.index t (2 : Fin 3) * 128 + 1 * cc.val = cc.val; omega

theorem blk11 (c : Dev nD) (t : Fin cfg0.N) (a : Fin 10) (b : Fin 64) (cc : Fin 1) :
    iblk m c 11 t (ix3 a b cc) = V m c main_v26 (ix3 a b cc) := by
  obtain ⟨h0, h1, h2⟩ := idx11 t
  show V m c main_v26 (((cfg0.win 11).blk t).view.emb (ix3 a b cc)) = _
  refine congrArg (V m c main_v26) (funext fun ax => Fin.ext ?_)
  match ax with
  | ⟨0, _⟩ => show win0_11.index t (0 : Fin 3) * 10 + 1 * a.val = a.val; omega
  | ⟨1, _⟩ => show win0_11.index t (1 : Fin 3) * 64 + 1 * b.val = b.val; omega
  | ⟨2, _⟩ => show win0_11.index t (2 : Fin 3) * 1 + 1 * cc.val = cc.val; omega

theorem blk12 (c : Dev nD) (t : Fin cfg0.N) (a : Fin 10) (b : Fin 8) (cc : Fin 64) :
    iblk m c 12 t (ix3 a b cc) = V m c main_v22 (ix3 a b cc) := by
  obtain ⟨h0, h1, h2⟩ := idx12 t
  show V m c main_v22 (((cfg0.win 12).blk t).view.emb (ix3 a b cc)) = _
  refine congrArg (V m c main_v22) (funext fun ax => Fin.ext ?_)
  match ax with
  | ⟨0, _⟩ => show win0_12.index t (0 : Fin 3) * 10 + 1 * a.val = a.val; omega
  | ⟨1, _⟩ => show win0_12.index t (1 : Fin 3) * 8 + 1 * b.val = b.val; omega
  | ⟨2, _⟩ => show win0_12.index t (2 : Fin 3) * 64 + 1 * cc.val = cc.val; omega

theorem blk13 (c : Dev nD) (t : Fin cfg0.N) (a : Fin 10) (b : Fin 8) (cc : Fin 1) :
    iblk m c 13 t (ix3 a b cc) = V m c main_v27 (ix3 a b cc) := by
  obtain ⟨h0, h1, h2⟩ := idx13 t
  show V m c main_v27 (((cfg0.win 13).blk t).view.emb (ix3 a b cc)) = _
  refine congrArg (V m c main_v27) (funext fun ax => Fin.ext ?_)
  match ax with
  | ⟨0, _⟩ => show win0_13.index t (0 : Fin 3) * 10 + 1 * a.val = a.val; omega
  | ⟨1, _⟩ => show win0_13.index t (1 : Fin 3) * 8 + 1 * b.val = b.val; omega
  | ⟨2, _⟩ => show win0_13.index t (2 : Fin 3) * 1 + 1 * cc.val = cc.val; omega

/-! ## The output block of point `t`, and the array -/

/-- Where point `t`'s output block sits in the array: (g, n, e) of the block is (g, n, t·2048 + e). -/
theorem emb14 (t : Fin cfg0.N) (j : S10x8x2048.Idx) :
    (((cfg0.win 14).blk t).view.emb j : S10x8x131072.Idx) = ix3 (j 0) (j 1) (lane t (j 2)) := by
  obtain ⟨h0, h1, h2⟩ := idx14 t
  refine funext fun ax => Fin.ext ?_
  match ax with
  | ⟨0, _⟩ => show win0_14.index t (0 : Fin 3) * 10 + 1 * (j 0).val = (j 0).val; omega
  | ⟨1, _⟩ => show win0_14.index t (1 : Fin 3) * 8 + 1 * (j 1).val = (j 1).val; omega
  | ⟨2, _⟩ => show win0_14.index t (2 : Fin 3) * 2048 + 1 * (j 2).val = t.val * 2048 + (j 2).val; omega

/-- WHAT POINT `t` WRITES BACK is block `t` of the array function. -/
theorem flushed_eq (c : Dev nD) (t : Fin cfg0.N) :
    (dats m 0 c).flushed 14 t = ((cfg0.win 14).blk t).view.read (Elt Ideal) (arrayOut m c) := by
  show (cfg0.win 14).cut (grid0.coords t) ((dats m 0 c).after 14 t) = _
  rw [after0_14]
  unfold outsAt0
  rw [Block.out_eq]
  funext j
  show Block.blockOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) j = arrayOut m c (((cfg0.win 14).blk t).view.emb j)
  rw [emb14 t j]
  exact edgeOut_congr (funext fun h => blk0 m c t h (j 2)) (blk1 m c t 0 (j 2))
    (funext fun h => blk2 m c t (j 0) h 0) (funext fun h => blk3 m c t (j 0) h 0)
    (funext fun h => funext fun f => blk4 m c t (j 0) f h) (funext fun f => blk5 m c t (j 0) f 0)
    (funext fun f => funext fun h => blk6 m c t (j 0) h f) (funext fun h => blk7 m c t (j 0) h 0)
    (funext fun h => funext fun f => blk8 m c t (j 0) f h) (funext fun f => blk9 m c t (j 0) f 0)
    (funext fun f => funext fun h => blk10 m c t (j 0) h f) (funext fun h => blk11 m c t (j 0) h 0)
    (funext fun h => funext fun n => blk12 m c t (j 0) n h) (funext fun n => blk13 m c t (j 0) n 0) rfl

/-- An index of the array is in point `t`'s block iff each coordinate is in the block's range on its axis. -/
theorem mem_blk (t : Fin cfg0.N) (i : S10x8x131072.Idx) :
    i ∈ ((cfg0.win 14).blk t).view.set ↔ ∀ a : Fin 3, win0_14.index t a * S10x8x2048.size a ≤ (i a).val
      ∧ (i a).val < win0_14.index t a * S10x8x2048.size a + S10x8x2048.size a := by
  show i ∈ ((View.whole main_v28).slice (win0_14.rect t)).set ↔ _
  rw [View.set_slice_whole, Rect.mem_set_unit]
  exact Iff.rfl

/-- Every index of the array is in the block of the point its edge belongs to. -/
theorem cover (i : S10x8x131072.Idx) :
    ∃ t : Fin cfg0.N, (cfg0.win 14).flush t = true ∧ i ∈ ((cfg0.win 14).blk t).view.set := by
  have hN : cfg0.N = 64 := N_0
  have i0 : (i 0).val < 10 := (i 0).isLt
  have i1 : (i 1).val < 8 := (i 1).isLt
  have i2 : (i 2).val < 131072 := (i 2).isLt
  have ht : (i 2).val / 2048 < cfg0.N := by omega
  obtain ⟨h0, h1, h2⟩ := idx14 ⟨(i 2).val / 2048, ht⟩
  refine ⟨⟨(i 2).val / 2048, ht⟩, flush0_14 _, ?_⟩
  rw [mem_blk]
  intro a
  match a with
  | ⟨0, _⟩ => show win0_14.index ⟨(i 2).val / 2048, ht⟩ (0 : Fin 3) * 10 ≤ (i 0).val ∧ (i 0).val < win0_14.index ⟨(i 2).val / 2048, ht⟩ (0 : Fin 3) * 10 + 10; omega
  | ⟨1, _⟩ => show win0_14.index ⟨(i 2).val / 2048, ht⟩ (1 : Fin 3) * 8 ≤ (i 1).val ∧ (i 1).val < win0_14.index ⟨(i 2).val / 2048, ht⟩ (1 : Fin 3) * 8 + 8; omega
  | ⟨2, _⟩ => show win0_14.index ⟨(i 2).val / 2048, ht⟩ (2 : Fin 3) * 2048 ≤ (i 2).val ∧ (i 2).val < win0_14.index ⟨(i 2).val / 2048, ht⟩ (2 : Fin 3) * 2048 + 2048; simp only [] at h2; omega

/-- THE OUTPUT ARRAY after the run. -/
theorem final (c : Dev nD) : (dats m 0 c).arrAt 14 cfg0.N = arrayOut m c :=
  (dats m 0 c).arrAt_eq_of_cover 14 (arrayOut m c) (fun t _ => flushed_eq m c t) cover

end GroupedMlp.Array

end
-- ==== Proof.KernelWindows.lean ====
/-
  The arrays the kernel's region finds in its fourteen input windows, read at an index in terms of the program's
  argument arrays.

  Before its region the kernel program only re-lays its arguments: the feature array and the weight arrays are
  transposed (the last two axes swapped), each bias array gets a trailing axis of extent one, each degree-coefficient
  row is sliced out, loses its leading unit axis and has its last two axes swapped, and the square roots of the
  degrees are gathered at the edges' destination nodes and given a leading axis of extent one. A transpose reads the
  operand at the swapped coordinates, a reshape at the index with the same row-major position, a slice at the shifted
  coordinate; so every entry of a window's array is one entry of one argument array. The gathered array is the very
  term the reference program computes from the same two arguments, and is kept as that term.
-/
import proofs.«141326_j66271345377501_2_alg».proof.Proof.Gen.KernelIdeal.Frame.Runs
import proofs.«141326_j66271345377501_2_alg».proof.Proof.Gen.ReferenceIdeal.Read
import proofs.«141326_j66271345377501_2_alg».proof.Proof.LibTrailingUnit
import Idealize.ShloMosaic.Lib.ValueLayout
import Idealize.ShloMosaic.Lib.StableHlo.Run

noncomputable section

namespace GroupedMlp.Windows

open Cert.KernelIdeal Cert.KernelIdeal.Gen Idealize.ShloMosaic Idealize.ShloMosaic.TcCoe Idealize.ShloMosaic.ValueIdx
open Idealize.SL.Sem Idealize.ShloMosaic.LibTrailingUnit

variable (m : (ℓ : Loc nD τ sig) → Buf (Elt Ideal) ℓ) (c : Dev nD)

/-- Window 0, the features transposed: entry (h, e) is the feature array's entry (e, h). -/
theorem win0_apply (h : Fin 64) (e : Fin 131072) :
    V m c main_v11 (ix2 h e) = m ((c : Thread nD τ).loc main_arg0) (ix2 e h) := by
  have hv : (V m c main_v11 : S64x131072.Idx → EReal) = transpose S64x131072 [1, 0] (m ((c : Thread nD τ).loc main_arg0)) transposes_S131072x64_S64x131072_1_0 := by
    show StableHlo.after hostOps0 (fun b => m (c, b)) (Proc.devRef .tc main_v11) = _
    after_results
    all_goals rfl
  rw [hv]
  exact transpose_ix2_apply _ _ h e

/-- Window 1, the square roots of the degrees gathered at the destination nodes, with a leading unit axis: entry
    (0, e) is entry e of the gathered array, which is the term the reference program builds from the same index and
    degree arrays by the same nine operations. -/
theorem win1_apply (u : Fin 1) (e : Fin 131072) :
    V m c main_v10 (ix2 u e)
      = Cert.ReferenceIdeal.Read.val_main_v9 (F := Ideal) (m ((c : Thread nD τ).loc main_arg1)) (m ((c : Thread nD τ).loc main_arg2)) (ix1 e) := by
  have hv : (V m c main_v10 : S1x131072.Idx → EReal) = shapeCast S1x131072
        (Cert.ReferenceIdeal.Read.val_main_v9 (F := Ideal) (m ((c : Thread nD τ).loc main_arg1)) (m ((c : Thread nD τ).loc main_arg2)))
        shapeCasts_S131072_S1x131072 := by
    show StableHlo.after hostOps0 (fun b => m (c, b)) (Proc.devRef .tc main_v10) = _
    after_results
    all_goals rfl
  rw [hv]
  exact shapeCast_a_1a_apply _ _ u e

/-- Window 2, the first degree-coefficient row of each group as a column: entry (g, h, 0) is the coefficient array's entry (0, g, 0, h). -/
theorem win2_apply (g : Fin 10) (h : Fin 64) (u : Fin 1) :
    V m c main_v14 (ix3 g h u) = m ((c : Thread nD τ).loc main_arg3) (ix4 (0 : Fin 2) g (0 : Fin 1) h) := by
  have hv : (V m c main_v14 : S10x64x1.Idx → EReal) = transpose S10x64x1 [0, 2, 1]
        (shapeCast S10x1x64 (extractStridedSlice S1x10x1x64 ![0, 0, 0, 0] (m ((c : Thread nD τ).loc main_arg3)) slices_S2x10x1x64_S1x10x1x64_0_0_0_0)
          shapeCasts_S1x10x1x64_S10x1x64) transposes_S10x1x64_S10x64x1_0_2_1 := by
    show StableHlo.after hostOps0 (fun b => m (c, b)) (Proc.devRef .tc main_v14) = _
    after_results
    all_goals rfl
  rw [hv]
  refine (transpose_ix3_021_apply _ _ g h u).trans ?_
  refine (shapeCast_1abc_abc_apply _ _ g u h).trans ?_
  have hu : u.val < 1 := u.isLt
  exact extractStridedSlice_apply ![0, 0, 0, 0] _ _ _ (ix4 (0 : Fin 2) g (0 : Fin 1) h) (fun a => match a with
    | ⟨0, _⟩ => by show (0 : ℕ) = 0 + 0; omega
    | ⟨1, _⟩ => by show g.val = 0 + g.val; omega
    | ⟨2, _⟩ => by show (0 : ℕ) = 0 + u.val; omega
    | ⟨3, _⟩ => by show h.val = 0 + h.val; omega)

/-- Window 3, the second degree-coefficient row of each group as a column: entry (g, h, 0) is the coefficient array's entry (1, g, 0, h). -/
theorem win3_apply (g : Fin 10) (h : Fin 64) (u : Fin 1) :
    V m c main_v17 (ix3 g h u) = m ((c : Thread nD τ).loc main_arg3) (ix4 (1 : Fin 2) g (0 : Fin 1) h) := by
  have hv : (V m c main_v17 : S10x64x1.Idx → EReal) = transpose S10x64x1 [0, 2, 1]
        (shapeCast S10x1x64 (extractStridedSlice S1x10x1x64 ![1, 0, 0, 0] (m ((c : Thread nD τ).loc main_arg3)) slices_S2x10x1x64_S1x10x1x64_1_0_0_0)
          shapeCasts_S1x10x1x64_S10x1x64) transposes_S10x1x64_S10x64x1_0_2_1 := by
    show StableHlo.after hostOps0 (fun b => m (c, b)) (Proc.devRef .tc main_v17) = _
    after_results
    all_goals rfl
  rw [hv]
  refine (transpose_ix3_021_apply _ _ g h u).trans ?_
  refine (shapeCast_1abc_abc_apply _ _ g u h).trans ?_
  have hu : u.val < 1 := u.isLt
  exact extractStridedSlice_apply ![1, 0, 0, 0] _ _ _ (ix4 (1 : Fin 2) g (0 : Fin 1) h) (fun a => match a with
    | ⟨0, _⟩ => by show (1 : ℕ) = 1 + 0; omega
    | ⟨1, _⟩ => by show g.val = 0 + g.val; omega
    | ⟨2, _⟩ => by show (0 : ℕ) = 0 + u.val; omega
    | ⟨3, _⟩ => by show h.val = 0 + h.val; omega)

/-- Window 4, the first block's input weights transposed within each group. -/
theorem win4_apply (g : Fin 10) (f : Fin 128) (h : Fin 64) :
    V m c main_v18 (ix3 g f h) = m ((c : Thread nD τ).loc main_arg4) (ix3 g h f) := by
  have hv : (V m c main_v18 : S10x128x64.Idx → EReal) = transpose S10x128x64 [0, 2, 1] (m ((c : Thread nD τ).loc main_arg4)) transposes_S10x64x128_S10x128x64_0_2_1 := by
    show StableHlo.after hostOps0 (fun b => m (c, b)) (Proc.devRef .tc main_v18) = _
    after_results
    all_goals rfl
  rw [hv]
  exact transpose_ix3_021_apply _ _ g f h

/-- Window 5, the first block's input bias as a column per group. -/
theorem win5_apply (g : Fin 10) (f : Fin 128) (u : Fin 1) :
    V m c main_v23 (ix3 g f u) = m ((c : Thread nD τ).loc main_arg5) (ix2 g f) := by
  have hv : (V m c main_v23 : S10x128x1.Idx → EReal) = shapeCast S10x128x1 (m ((c : Thread nD τ).loc main_arg5)) shapeCasts_S10x128_S10x128x1 := by
    show StableHlo.after hostOps0 (fun b => m (c, b)) (Proc.devRef .tc main_v23) = _
    after_results
    all_goals rfl
  rw [hv]
  exact shapeCast_ab_ab1_apply _ _ g f u

/-- Window 6, the first block's output weights transposed within each group. -/
theorem win6_apply (g : Fin 10) (h : Fin 64) (f : Fin 128) :
    V m c main_v19 (ix3 g h f) = m ((c : Thread nD τ).loc main_arg6) (ix3 g f h) := by
  have hv : (V m c main_v19 : S10x64x128.Idx → EReal) = transpose S10x64x128 [0, 2, 1] (m ((c : Thread nD τ).loc main_arg6)) transposes_S10x128x64_S10x64x128_0_2_1 := by
    show StableHlo.after hostOps0 (fun b => m (c, b)) (Proc.devRef .tc main_v19) = _
    after_results
    all_goals rfl
  rw [hv]
  exact transpose_ix3_021_apply _ _ g h f

/-- Window 7, the first block's output bias as a column per group. -/
theorem win7_apply (g : Fin 10) (h : Fin 64) (u : Fin 1) :
    V m c main_v24 (ix3 g h u) = m ((c : Thread nD τ).loc main_arg7) (ix2 g h) := by
  have hv : (V m c main_v24 : S10x64x1.Idx → EReal) = shapeCast S10x64x1 (m ((c : Thread nD τ).loc main_arg7)) shapeCasts_S10x64_S10x64x1 := by
    show StableHlo.after hostOps0 (fun b => m (c, b)) (Proc.devRef .tc main_v24) = _
    after_results
    all_goals rfl
  rw [hv]
  exact shapeCast_ab_ab1_apply _ _ g h u

/-- Window 8, the second block's input weights transposed within each group. -/
theorem win8_apply (g : Fin 10) (f : Fin 128) (h : Fin 64) :
    V m c main_v20 (ix3 g f h) = m ((c : Thread nD τ).loc main_arg8) (ix3 g h f) := by
  have hv : (V m c main_v20 : S10x128x64.Idx → EReal) = transpose S10x128x64 [0, 2, 1] (m ((c : Thread nD τ).loc main_arg8)) transposes_S10x64x128_S10x128x64_0_2_1 := by
    show StableHlo.after hostOps0 (fun b => m (c, b)) (Proc.devRef .tc main_v20) = _
    after_results
    all_goals rfl
  rw [hv]
  exact transpose_ix3_021_apply _ _ g f h

/-- Window 9, the second block's input bias as a column per group. -/
theorem win9_apply (g : Fin 10) (f : Fin 128) (u : Fin 1) :
    V m c main_v25 (ix3 g f u) = m ((c : Thread nD τ).loc main_arg9) (ix2 g f) := by
  have hv : (V m c main_v25 : S10x128x1.Idx → EReal) = shapeCast S10x128x1 (m ((c : Thread nD τ).loc main_arg9)) shapeCasts_S10x128_S10x128x1 := by
    show StableHlo.after hostOps0 (fun b => m (c, b)) (Proc.devRef .tc main_v25) = _
    after_results
    all_goals rfl
  rw [hv]
  exact shapeCast_ab_ab1_apply _ _ g f u

/-- Window 10, the second block's output weights transposed within each group. -/
theorem win10_apply (g : Fin 10) (h : Fin 64) (f : Fin 128) :
    V m c main_v21 (ix3 g h f) = m ((c : Thread nD τ).loc main_arg10) (ix3 g f h) := by
  have hv : (V m c main_v21 : S10x64x128.Idx → EReal) = transpose S10x64x128 [0, 2, 1] (m ((c : Thread nD τ).loc main_arg10)) transposes_S10x128x64_S10x64x128_0_2_1 := by
    show StableHlo.after hostOps0 (fun b => m (c, b)) (Proc.devRef .tc main_v21) = _
    after_results
    all_goals rfl
  rw [hv]
  exact transpose_ix3_021_apply _ _ g h f

/-- Window 11, the second block's output bias as a column per group. -/
theorem win11_apply (g : Fin 10) (h : Fin 64) (u : Fin 1) :
    V m c main_v26 (ix3 g h u) = m ((c : Thread nD τ).loc main_arg11) (ix2 g h) := by
  have hv : (V m c main_v26 : S10x64x1.Idx → EReal) = shapeCast S10x64x1 (m ((c : Thread nD τ).loc main_arg11)) shapeCasts_S10x64_S10x64x1 := by
    show StableHlo.after hostOps0 (fun b => m (c, b)) (Proc.devRef .tc main_v26) = _
    after_results
    all_goals rfl
  rw [hv]
  exact shapeCast_ab_ab1_apply _ _ g h u

/-- Window 12, the head weights transposed within each group. -/
theorem win12_apply (g : Fin 10) (n : Fin 8) (h : Fin 64) :
    V m c main_v22 (ix3 g n h) = m ((c : Thread nD τ).loc main_arg12) (ix3 g h n) := by
  have hv : (V m c main_v22 : S10x8x64.Idx → EReal) = transpose S10x8x64 [0, 2, 1] (m ((c : Thread nD τ).loc main_arg12)) transposes_S10x64x8_S10x8x64_0_2_1 := by
    show StableHlo.after hostOps0 (fun b => m (c, b)) (Proc.devRef .tc main_v22) = _
    after_results
    all_goals rfl
  rw [hv]
  exact transpose_ix3_021_apply _ _ g n h

/-- Window 13, the head bias as a column per group. -/
theorem win13_apply (g : Fin 10) (n : Fin 8) (u : Fin 1) :
    V m c main_v27 (ix3 g n u) = m ((c : Thread nD τ).loc main_arg13) (ix2 g n) := by
  have hv : (V m c main_v27 : S10x8x1.Idx → EReal) = shapeCast S10x8x1 (m ((c : Thread nD τ).loc main_arg13)) shapeCasts_S10x8_S10x8x1 := by
    show StableHlo.after hostOps0 (fun b => m (c, b)) (Proc.devRef .tc main_v27) = _
    after_results
    all_goals rfl
  rw [hv]
  exact shapeCast_ab_ab1_apply _ _ g n u

end GroupedMlp.Windows

end
-- ==== Proof.KernelTail.lean ====
/-
  The kernel program's result array, read at an index in terms of the array its region leaves.

  After its region the kernel program only re-lays the region's output array: the last two axes are swapped, and a
  trailing axis of extent one is appended. A transpose reads its operand at the swapped coordinates and a reshape at
  the index with the same row-major position, so entry (g, e, n, 0) of the result is entry (g, n, e) of the region's
  output.
-/
import proofs.«141326_j66271345377501_2_alg».proof.Proof.Gen.KernelIdeal.Frame
import proofs.«141326_j66271345377501_2_alg».proof.Proof.LibTrailingUnit
import Idealize.ShloMosaic.Lib.ValueLayout
import Idealize.ShloMosaic.Lib.StableHlo.Run

noncomputable section

namespace GroupedMlp.Tail

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.LibTrailingUnit

variable (m : (ℓ : Loc nD τ sig) → Buf (Elt Ideal) ℓ)

/-- Entry (g, e, n, 0) of the program's result is entry (g, n, e) of the array the region leaves as its output: the
    two host operations after the region swap the last two axes and append an axis of extent one. -/
theorem tail_apply (c : Dev nD) (G : S10x8x131072.Idx → EReal) (hG : (dats m 0 c).arrAt 14 cfg0.N = G)
    (g : Fin 10) (e : Fin 131072) (n : Fin 8) (u : Fin 1) :
    Pipeline.afterTail₀ cfgs (dats m) 0 (V0 m) [hostOps1] c main_v30 (ix4 g e n u) = G (ix3 g n e) := by
  have hv : (Pipeline.afterTail₀ cfgs (dats m) 0 (V0 m) [hostOps1] c main_v30 : S10x131072x8x1.Idx → EReal)
      = shapeCast S10x131072x8x1 (transpose S10x131072x8 [0, 2, 1] G transposes_S10x8x131072_S10x131072x8_0_2_1)
          shapeCasts_S10x131072x8_S10x131072x8x1 := by
    have key : Pipeline.withArrays (cfgs 0).spec c (V0 m c) (fun w => (dats m 0 c).arrAt w (cfgs 0).N)
        (Proc.devRef .tc main_v28) = G :=
      (Pipeline.withArrays_arr spec0 launch0.win.arr_inj c _ _ 14).trans hG
    unfold Pipeline.afterTail₀
    show StableHlo.after hostOps1 _ (Proc.devRef .tc main_v30) = _
    after_results
    rw [key]
    rfl
  rw [hv]
  refine (shapeCast_abc_abc1_apply _ _ g e n u).trans ?_
  exact transpose_ix3_021_apply _ _ g e n

end GroupedMlp.Tail

end
-- ==== Proof.RefIsSpec.lean ====
/-
  The reference program computes the grouped feed-forward function of the specification, entry by entry.

  Each stage of the program is read at explicit coordinates (group g, edge e, and a feature, hidden or head
  coordinate): the degree scaling, the two feed-forward blocks, the last rectifier and the projection to the heads.
  Every broadcast, slice and reshape is the identity on the coordinates it keeps, and every contraction is the sum
  over its one contracted coordinate with the activation on the left, so each stage is literally the specification's
  function of the previous stage: no algebraic law of the extended reals is used. The gathered square root of the
  destination node's degree is kept as one opaque scalar.
-/
import proofs.«141326_j66271345377501_2_alg».proof.Proof.Spec
import proofs.«141326_j66271345377501_2_alg».proof.Proof.Gen.ReferenceIdeal.Read

noncomputable section

namespace GroupedMlp.Ref

open Cert.ReferenceIdeal Cert.ReferenceIdeal.Read Idealize.ShloMosaic Idealize.ShloMosaic.ValueIdx
open scoped BigOperators

variable (x0 : (⟨S131072x64, .f32⟩ : BufTy).Contents (Elt Ideal)) (x1 : (⟨S2x131072, .i32⟩ : BufTy).Contents (Elt Ideal)) (x2 : (⟨S16384, .f32⟩ : BufTy).Contents (Elt Ideal)) (x3 : (⟨S2x10x1x64, .f32⟩ : BufTy).Contents (Elt Ideal)) (x4 : (⟨S10x64x128, .f32⟩ : BufTy).Contents (Elt Ideal)) (x5 : (⟨S10x128, .f32⟩ : BufTy).Contents (Elt Ideal)) (x6 : (⟨S10x128x64, .f32⟩ : BufTy).Contents (Elt Ideal)) (x7 : (⟨S10x64, .f32⟩ : BufTy).Contents (Elt Ideal)) (x8 : (⟨S10x64x128, .f32⟩ : BufTy).Contents (Elt Ideal)) (x9 : (⟨S10x128, .f32⟩ : BufTy).Contents (Elt Ideal)) (x10 : (⟨S10x128x64, .f32⟩ : BufTy).Contents (Elt Ideal)) (x11 : (⟨S10x64, .f32⟩ : BufTy).Contents (Elt Ideal)) (x12 : (⟨S10x64x8, .f32⟩ : BufTy).Contents (Elt Ideal)) (x13 : (⟨S10x8, .f32⟩ : BufTy).Contents (Elt Ideal))
variable (g : Fin 10) (e : Fin 131072)

set_option quotPrecheck false

/-- The zero word the rectifiers compare with, read at the ideal instance. -/
local notation "zw" => Ideal.ofBits FTy.f32 0x00000000#32
/-- The edge's feature row. -/
local notation "fa" => (fun h : Fin 64 => x0 (ix2 e h))
/-- The square root of the degree of the edge's destination node (the gathered scalar, kept as an opaque term). -/
local notation "fs" => Cert.ReferenceIdeal.Read.val_main_v9 (F := Ideal) x1 x2 (ix1 e)
/-- The group's two degree-coefficient rows. -/
local notation "fc0" => (fun h : Fin 64 => x3 (ix4 (0 : Fin 2) g (0 : Fin 1) h))
local notation "fc1" => (fun h : Fin 64 => x3 (ix4 (1 : Fin 2) g (0 : Fin 1) h))
/-- The group's weights and biases: first block, second block, heads. -/
local notation "wi1" => (fun (h : Fin 64) (f : Fin 128) => x4 (ix3 g h f))
local notation "bi1" => (fun f : Fin 128 => x5 (ix2 g f))
local notation "wo1" => (fun (f : Fin 128) (h : Fin 64) => x6 (ix3 g f h))
local notation "bo1" => (fun h : Fin 64 => x7 (ix2 g h))
local notation "wi2" => (fun (h : Fin 64) (f : Fin 128) => x8 (ix3 g h f))
local notation "bi2" => (fun f : Fin 128 => x9 (ix2 g f))
local notation "wo2" => (fun (f : Fin 128) (h : Fin 64) => x10 (ix3 g f h))
local notation "bo2" => (fun h : Fin 64 => x11 (ix2 g h))
local notation "wf" => (fun (h : Fin 64) (k : Fin 8) => x12 (ix3 g h k))
local notation "bf" => (fun k : Fin 8 => x13 (ix2 g k))
/-- The activations after the scaling, after the first block and after the second block. -/
local notation "act0" => GroupedMlp.scaled fa fs fc0 fc1
local notation "act1" => GroupedMlp.block zw act0 wi1 bi1 wo1 bo1
local notation "act2" => GroupedMlp.block zw act1 wi2 bi2 wo2 bo2

/-- Stage 1, the degree scaling: entry (g, e, h) of the scaled features is the specification's scaled entry h.
    The feature row is broadcast over the groups, each coefficient row is sliced out, reshaped and broadcast over
    the edges, and the gathered scalar is broadcast over the features. -/
theorem scaled_apply (h : Fin 64) :
    val_main_v24 (F := Ideal) x0 x1 x2 x3 (ix3 g e h) = act0 h := by
  have ea : idx_main_v11 (idx_main_v14 (ix3 g e h)) = ix2 e h := funext fun a => Fin.ext (by match a with | ⟨0, _⟩ => rfl | ⟨1, _⟩ => rfl)
  have es : idx_main_v10 (idx_main_v17 (idx_main_v21 (ix3 g e h))) = ix1 e :=
    funext fun a => Fin.ext (by match a with | ⟨0, _⟩ => rfl)
  have ec0 : idx_main_v12 (idx_main_v13 (idx_main_v15 (ix3 g e h))) = ix4 (0 : Fin 2) g (0 : Fin 1) h :=
    funext fun a => Fin.ext (by
      have hg : g.val < 10 := g.isLt
      have hh : h.val < 64 := h.isLt
      match a with
      | ⟨0, _⟩ => rfl
      | ⟨1, _⟩ => show ((g.val * 1 + 0) * 64 + h.val) / 64 % 10 = g.val; omega
      | ⟨2, _⟩ => rfl
      | ⟨3, _⟩ => show ((g.val * 1 + 0) * 64 + h.val) % 64 = h.val; omega)
  have ec1 : idx_main_v19 (idx_main_v20 (idx_main_v22 (ix3 g e h))) = ix4 (1 : Fin 2) g (0 : Fin 1) h :=
    funext fun a => Fin.ext (by
      have hg : g.val < 10 := g.isLt
      have hh : h.val < 64 := h.isLt
      match a with
      | ⟨0, _⟩ => rfl
      | ⟨1, _⟩ => show ((g.val * 1 + 0) * 64 + h.val) / 64 % 10 = g.val; omega
      | ⟨2, _⟩ => rfl
      | ⟨3, _⟩ => show ((g.val * 1 + 0) * 64 + h.val) % 64 = h.val; omega)
  rw [val_main_v24_apply, val_main_v16_apply, val_main_v23_apply, val_main_v14_apply, val_main_v15_apply,
    val_main_v21_apply, val_main_v22_apply, val_main_v18_apply, val_main_v11_apply,
    val_main_v13_apply, val_main_v12_apply, val_main_v17_apply, val_main_v10_apply, val_main_v20_apply,
    val_main_v19_apply, ea, es, ec0, ec1]
  rfl

/-- Stage 2, the hidden layer of the first block: the contraction runs over the feature coordinate of the scaled
    activations, the bias is broadcast over the edges, and the rectifier takes the maximum with the zero word. -/
theorem hidden1_apply (f : Fin 128) :
    val_main_v29 (F := Ideal) x0 x1 x2 x3 x4 x5 (ix3 g e f) = GroupedMlp.hidden zw act0 wi1 bi1 f := by
  have el : ∀ k : Fin 64, lidx_main_v25 (ix3 g e f) k = ix3 g e k := fun k => funext fun a => Fin.ext (by match a with | ⟨0, _⟩ => rfl | ⟨1, _⟩ => rfl | ⟨2, _⟩ => rfl)
  have er : ∀ k : Fin 64, ridx_main_v25 (ix3 g e f) k = ix3 g k f := fun k => funext fun a => Fin.ext (by match a with | ⟨0, _⟩ => rfl | ⟨1, _⟩ => rfl | ⟨2, _⟩ => rfl)
  have eb : idx_main_v26 (idx_main_v27 (ix3 g e f)) = ix2 g f := funext fun a => Fin.ext (by match a with | ⟨0, _⟩ => rfl | ⟨1, _⟩ => rfl)
  have hsum : ∑ k : Fin 64, val_main_v24 (F := Ideal) x0 x1 x2 x3 (lidx_main_v25 (ix3 g e f) k)
        * x4 (ridx_main_v25 (ix3 g e f) k) = ∑ k : Fin 64, act0 k * x4 (ix3 g k f) :=
    Finset.sum_congr rfl fun k _ => by rw [el k, er k, scaled_apply]
  rw [val_main_v29_apply, val_main_v28_apply, val_main_v25_apply, hsum, val_main_v27_apply, val_main_v26_apply, eb,
    val_main_call0_v0_apply, val_main_call0_cst_apply]
  rfl

/-- Stage 3, the first block with its residual: the contraction runs over the hidden coordinate, the bias is
    broadcast over the edges, and the scaled activations are added back. -/
theorem block1_apply (h : Fin 64) :
    val_main_v34 (F := Ideal) x0 x1 x2 x3 x4 x5 x6 x7 (ix3 g e h) = act1 h := by
  have el : ∀ k : Fin 128, lidx_main_v30 (ix3 g e h) k = ix3 g e k := fun k => funext fun a => Fin.ext (by match a with | ⟨0, _⟩ => rfl | ⟨1, _⟩ => rfl | ⟨2, _⟩ => rfl)
  have er : ∀ k : Fin 128, ridx_main_v30 (ix3 g e h) k = ix3 g k h := fun k => funext fun a => Fin.ext (by match a with | ⟨0, _⟩ => rfl | ⟨1, _⟩ => rfl | ⟨2, _⟩ => rfl)
  have eb : idx_main_v31 (idx_main_v32 (ix3 g e h)) = ix2 g h := funext fun a => Fin.ext (by match a with | ⟨0, _⟩ => rfl | ⟨1, _⟩ => rfl)
  have hsum : ∑ k : Fin 128, val_main_v29 (F := Ideal) x0 x1 x2 x3 x4 x5 (lidx_main_v30 (ix3 g e h) k)
        * x6 (ridx_main_v30 (ix3 g e h) k)
      = ∑ k : Fin 128, GroupedMlp.hidden zw act0 wi1 bi1 k * x6 (ix3 g k h) :=
    Finset.sum_congr rfl fun k _ => by rw [el k, er k, hidden1_apply]
  rw [val_main_v34_apply, val_main_v33_apply, val_main_v30_apply, hsum, val_main_v32_apply, val_main_v31_apply, eb,
    scaled_apply]
  rfl

/-- Stage 4, the hidden layer of the second block, over the first block's activations. -/
theorem hidden2_apply (f : Fin 128) :
    val_main_v39 (F := Ideal) x0 x1 x2 x3 x4 x5 x6 x7 x8 x9 (ix3 g e f) = GroupedMlp.hidden zw act1 wi2 bi2 f := by
  have el : ∀ k : Fin 64, lidx_main_v35 (ix3 g e f) k = ix3 g e k := fun k => funext fun a => Fin.ext (by match a with | ⟨0, _⟩ => rfl | ⟨1, _⟩ => rfl | ⟨2, _⟩ => rfl)
  have er : ∀ k : Fin 64, ridx_main_v35 (ix3 g e f) k = ix3 g k f := fun k => funext fun a => Fin.ext (by match a with | ⟨0, _⟩ => rfl | ⟨1, _⟩ => rfl | ⟨2, _⟩ => rfl)
  have eb : idx_main_v36 (idx_main_v37 (ix3 g e f)) = ix2 g f := funext fun a => Fin.ext (by match a with | ⟨0, _⟩ => rfl | ⟨1, _⟩ => rfl)
  have hsum : ∑ k : Fin 64, val_main_v34 (F := Ideal) x0 x1 x2 x3 x4 x5 x6 x7 (lidx_main_v35 (ix3 g e f) k)
        * x8 (ridx_main_v35 (ix3 g e f) k) = ∑ k : Fin 64, act1 k * x8 (ix3 g k f) :=
    Finset.sum_congr rfl fun k _ => by rw [el k, er k, block1_apply]
  rw [val_main_v39_apply, val_main_v38_apply, val_main_v35_apply, hsum, val_main_v37_apply, val_main_v36_apply, eb,
    val_main_call1_v0_apply, val_main_call1_cst_apply]
  rfl

/-- Stage 5, the second block with its residual. -/
theorem block2_apply (h : Fin 64) :
    val_main_v44 (F := Ideal) x0 x1 x2 x3 x4 x5 x6 x7 x8 x9 x10 x11 (ix3 g e h) = act2 h := by
  have el : ∀ k : Fin 128, lidx_main_v40 (ix3 g e h) k = ix3 g e k := fun k => funext fun a => Fin.ext (by match a with | ⟨0, _⟩ => rfl | ⟨1, _⟩ => rfl | ⟨2, _⟩ => rfl)
  have er : ∀ k : Fin 128, ridx_main_v40 (ix3 g e h) k = ix3 g k h := fun k => funext fun a => Fin.ext (by match a with | ⟨0, _⟩ => rfl | ⟨1, _⟩ => rfl | ⟨2, _⟩ => rfl)
  have eb : idx_main_v41 (idx_main_v42 (ix3 g e h)) = ix2 g h := funext fun a => Fin.ext (by match a with | ⟨0, _⟩ => rfl | ⟨1, _⟩ => rfl)
  have hsum : ∑ k : Fin 128, val_main_v39 (F := Ideal) x0 x1 x2 x3 x4 x5 x6 x7 x8 x9 (lidx_main_v40 (ix3 g e h) k)
        * x10 (ridx_main_v40 (ix3 g e h) k)
      = ∑ k : Fin 128, GroupedMlp.hidden zw act1 wi2 bi2 k * x10 (ix3 g k h) :=
    Finset.sum_congr rfl fun k _ => by rw [el k, er k, hidden2_apply]
  rw [val_main_v44_apply, val_main_v43_apply, val_main_v40_apply, hsum, val_main_v42_apply, val_main_v41_apply, eb,
    block1_apply]
  rfl

/-- Stage 6, the heads: the last rectifier, the contraction over the feature coordinate, and the head bias
    broadcast over the edges. -/
theorem head_apply (n : Fin 8) :
    val_main_v49 (F := Ideal) x0 x1 x2 x3 x4 x5 x6 x7 x8 x9 x10 x11 x12 x13 (ix3 g e n)
      = GroupedMlp.head zw act2 wf bf n := by
  have el : ∀ k : Fin 64, lidx_main_v46 (ix3 g e n) k = ix3 g e k := fun k => funext fun a => Fin.ext (by match a with | ⟨0, _⟩ => rfl | ⟨1, _⟩ => rfl | ⟨2, _⟩ => rfl)
  have er : ∀ k : Fin 64, ridx_main_v46 (ix3 g e n) k = ix3 g k n := fun k => funext fun a => Fin.ext (by match a with | ⟨0, _⟩ => rfl | ⟨1, _⟩ => rfl | ⟨2, _⟩ => rfl)
  have eb : idx_main_v47 (idx_main_v48 (ix3 g e n)) = ix2 g n := funext fun a => Fin.ext (by match a with | ⟨0, _⟩ => rfl | ⟨1, _⟩ => rfl)
  have hsum : ∑ k : Fin 64, val_main_v45 (F := Ideal) x0 x1 x2 x3 x4 x5 x6 x7 x8 x9 x10 x11
          (lidx_main_v46 (ix3 g e n) k) * x12 (ridx_main_v46 (ix3 g e n) k)
      = ∑ k : Fin 64, max (act2 k) zw * x12 (ix3 g k n) :=
    Finset.sum_congr rfl fun k _ => by
      rw [el k, er k, val_main_v45_apply, block2_apply, val_main_call2_v0_apply, val_main_call2_cst_apply]
      rfl
  rw [val_main_v49_apply, val_main_v46_apply, hsum, val_main_v48_apply, val_main_v47_apply, eb]
  rfl

/-- The reference's result at (g, e, n, 0) is the specification's function of edge e through group g at head n:
    the last reshape only appends a coordinate of extent one. -/
theorem reference_apply (n : Fin 8) (u : Fin 1) :
    Cert.ReferenceIdeal.Read.val_main_v50 (F := Ideal) x0 x1 x2 x3 x4 x5 x6 x7 x8 x9 x10 x11 x12 x13 (ix4 g e n u)
      = GroupedMlp.edgeOut (Ideal.ofBits .f32 0x00000000#32)
          (fun h => x0 (ix2 e h)) (Cert.ReferenceIdeal.Read.val_main_v9 (F := Ideal) x1 x2 (ix1 e))
          (fun h => x3 (ix4 (0 : Fin 2) g (0 : Fin 1) h)) (fun h => x3 (ix4 (1 : Fin 2) g (0 : Fin 1) h))
          (fun h f => x4 (ix3 g h f)) (fun f => x5 (ix2 g f)) (fun f h => x6 (ix3 g f h)) (fun h => x7 (ix2 g h))
          (fun h f => x8 (ix3 g h f)) (fun f => x9 (ix2 g f)) (fun f h => x10 (ix3 g f h)) (fun h => x11 (ix2 g h))
          (fun h k => x12 (ix3 g h k)) (fun k => x13 (ix2 g k)) n := by
  have er : idx_main_v50 (ix4 g e n u) = ix3 g e n :=
    funext fun a => Fin.ext (by
      have hg : g.val < 10 := g.isLt
      have he : e.val < 131072 := e.isLt
      have hn : n.val < 8 := n.isLt
      have hu : u.val < 1 := u.isLt
      match a with
      | ⟨0, _⟩ => show (((g.val * 131072 + e.val) * 8 + n.val) * 1 + u.val) / 1048576 = g.val; omega
      | ⟨1, _⟩ => show (((g.val * 131072 + e.val) * 8 + n.val) * 1 + u.val) / 8 % 131072 = e.val; omega
      | ⟨2, _⟩ => show (((g.val * 131072 + e.val) * 8 + n.val) * 1 + u.val) % 8 = n.val; omega)
  rw [val_main_v50_apply, er, head_apply]
  rfl

end GroupedMlp.Ref

end
-- ==== Proof.Bridge.lean ====
/-
  The two programs' results are one function of the arguments.

  The kernel program hands its pallas_call the feature array transposed, the gathered square-root degrees as a row,
  and every weight and bias array with its last two axes swapped or a unit axis added; the call fills the
  [10, 8, 131072] array with the per-edge function; the program then swaps the last two axes back and adds a unit
  axis. Read at (g, e, n, ·) through all of that, the result is the per-edge function of edge `e`'s feature row,
  its gathered square-root degree, and group `g`'s coefficients, weights and biases as the arguments hold them —
  which is what the reference's result is at the same index.
-/
import proofs.«141326_j66271345377501_2_alg».proof.Proof.KernelArray
import proofs.«141326_j66271345377501_2_alg».proof.Proof.KernelWindows
import proofs.«141326_j66271345377501_2_alg».proof.Proof.KernelTail
import proofs.«141326_j66271345377501_2_alg».proof.Proof.RefIsSpec

set_option maxRecDepth 16384

noncomputable section

namespace GroupedMlp.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen GroupedMlp.Lanes

variable (m : (ℓ : Loc nD τ sig) → Buf (Elt Ideal) ℓ)

/-- THE KERNEL PROGRAM'S RESULT at (g, e, n, ·), as the per-edge function of the argument arrays. -/
theorem kernel_apply (c : Dev nD) (g : Fin 10) (e : Fin 131072) (n : Fin 8) (u : Fin 1) :
    Pipeline.afterTail₀ cfgs (dats m) 0 (V0 m) [hostOps1] c main_v30 (ix4 g e n u)
      = edgeOut zeroWord (fun h => (m ((c : Thread nD τ).loc main_arg0)) (ix2 e h)) (Cert.ReferenceIdeal.Read.val_main_v9 (F := Ideal) (m ((c : Thread nD τ).loc main_arg1)) (m ((c : Thread nD τ).loc main_arg2)) (ix1 e))
        (fun h => (m ((c : Thread nD τ).loc main_arg3)) (ix4 (0 : Fin 2) g (0 : Fin 1) h)) (fun h => (m ((c : Thread nD τ).loc main_arg3)) (ix4 (1 : Fin 2) g (0 : Fin 1) h))
        (fun h f => (m ((c : Thread nD τ).loc main_arg4)) (ix3 g h f)) (fun f => (m ((c : Thread nD τ).loc main_arg5)) (ix2 g f)) (fun f h => (m ((c : Thread nD τ).loc main_arg6)) (ix3 g f h)) (fun h => (m ((c : Thread nD τ).loc main_arg7)) (ix2 g h))
        (fun h f => (m ((c : Thread nD τ).loc main_arg8)) (ix3 g h f)) (fun f => (m ((c : Thread nD τ).loc main_arg9)) (ix2 g f)) (fun f h => (m ((c : Thread nD τ).loc main_arg10)) (ix3 g f h)) (fun h => (m ((c : Thread nD τ).loc main_arg11)) (ix2 g h))
        (fun h k => (m ((c : Thread nD τ).loc main_arg12)) (ix3 g h k)) (fun k => (m ((c : Thread nD τ).loc main_arg13)) (ix2 g k)) n := by
  rw [Tail.tail_apply m c (Array.arrayOut m c) (Array.final m c) g e n u]
  unfold Array.arrayOut
  exact Array.edgeOut_congr (funext fun h => Windows.win0_apply m c h e) (Windows.win1_apply m c 0 e)
    (funext fun h => Windows.win2_apply m c g h 0) (funext fun h => Windows.win3_apply m c g h 0)
    (funext fun h => funext fun f => Windows.win4_apply m c g f h) (funext fun f => Windows.win5_apply m c g f 0)
    (funext fun f => funext fun h => Windows.win6_apply m c g h f) (funext fun h => Windows.win7_apply m c g h 0)
    (funext fun h => funext fun f => Windows.win8_apply m c g f h) (funext fun f => Windows.win9_apply m c g f 0)
    (funext fun f => funext fun h => Windows.win10_apply m c g h f) (funext fun h => Windows.win11_apply m c g h 0)
    (funext fun h => funext fun k => Windows.win12_apply m c g k h) (funext fun k => Windows.win13_apply m c g k 0) rfl

/-- THE KERNEL PROGRAM'S RUN, its result named: every weakly fair execution terminates with the result buffer at what
    the host operations after the region make of the output array, and the arguments as they were. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v30) = Pipeline.afterTail₀ cfgs (dats m) 0 (V0 m) [hostOps1] c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).2 main_v30 (Pipeline.mem_restRefs_of main_v30 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c))⟩) (run_main m ρ)

/-- THE TWO RESULTS ARE ONE ARRAY when the two memories agree on the arguments: at every (g, e, n, ·) both are the
    per-edge function of the same argument entries. -/
theorem results_agree (m' : (ℓ : Loc Cert.ReferenceIdeal.nD Cert.ReferenceIdeal.τ Cert.ReferenceIdeal.sig) → Buf (Elt Ideal) ℓ) (c : Dev nD)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)) :
    Cert.ReferenceIdeal.Value.res_main_v50 m' c = Pipeline.afterTail₀ cfgs (dats m) 0 (V0 m) [hostOps1] c main_v30 := by
  obtain ⟨h0, h1, h2, h3, h4, h5, h6, h7, h8, h9, h10, h11, h12, h13⟩ := hagree
  funext (i : S10x131072x8x1.Idx)
  obtain ⟨g, e, n, u, rfl⟩ : ∃ (g : Fin 10) (e : Fin 131072) (n : Fin 8) (u : Fin 1), i = ix4 g e n u :=
    ⟨i 0, i 1, i 2, i 3, eq_ix4 i⟩
  rw [Cert.ReferenceIdeal.Read.val_main_v50_eq, Ref.reference_apply, h0, h1, h2, h3, h4, h5, h6, h7, h8, h9, h10, h11, h12, h13]
  exact (kernel_apply m c g e n u).symm

end GroupedMlp.Bridge

end
-- ==== Proof.lean ====
/-
  The grouped edge network: a tiled kernel against its plain reference, over the extended reals.

  Both programs send every edge's 64 features through a degree scaling (by the square root of the destination node's
  degree, gathered from a table) and, for each of ten groups, two feed-forward blocks with rectifiers and residuals
  and a projection to eight heads. The kernel works on tiles of 2048 edges with the edges on the lanes, every weight
  matrix transposed and the products narrowed to a shorter float format; on exact values the narrowing is the
  identity and a product with its factors swapped is the same product, so at every (group, edge, head) both compute
  one per-edge function (Proof/Spec.lean) of the same argument entries. No cancellation or distribution is used, so
  the finiteness of the inputs is never opened.

  Proof/RefIsSpec.lean reads the reference's result as that function; Proof/KernelLayers.lean and
  Proof/KernelPayload.lean read one trip of the kernel's loop over the groups; Proof/KernelBlock.lean a grid point's
  whole output block; Proof/KernelArray.lean the output array; Proof/KernelWindows.lean and Proof/KernelTail.lean the
  host operations before and after the call; Proof/Bridge.lean joins them. The three frames are the generated runs;
  the idealized kernel is the kernel's own text read at exact values, so nothing is owed for it.
-/
import proofs.«141326_j66271345377501_2_alg».proof.Defs
import proofs.«141326_j66271345377501_2_alg».proof.Proof.Gen.Kernel
import proofs.«141326_j66271345377501_2_alg».proof.Proof.Gen.Kernel.Frame
import proofs.«141326_j66271345377501_2_alg».proof.Proof.Gen.KernelIdeal
import proofs.«141326_j66271345377501_2_alg».proof.Proof.Gen.KernelIdeal.Frame
import proofs.«141326_j66271345377501_2_alg».proof.Proof.Gen.ReferenceIdeal
import proofs.«141326_j66271345377501_2_alg».proof.Proof.Gen.ReferenceIdeal.Run
import proofs.«141326_j66271345377501_2_alg».proof.Proof.Gen.ReferenceIdeal.Read
import proofs.«141326_j66271345377501_2_alg».proof.Proof.Gen.Pre_finite_inputs
import proofs.«141326_j66271345377501_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments: the generated frame. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run, to one result array: the kernel's run names its
    result, the reference's run names its own, and the two are one function of the arguments. -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v30, GroupedMlp.Bridge.kernel_run m ρ, ?_⟩
  exact (θ_run Cert.ReferenceIdeal.defs _ _).mono
    (fun _ h c => ⟨(h c).1.trans (GroupedMlp.Bridge.results_agree m m' c (hagree c)), (h c).2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
